-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x4096 : Shape := ⟨2, ![8192, 4096]⟩
abbrev S256x256 : Shape := ⟨2, ![256, 256]⟩
abbrev S256 : Shape := ⟨1, ![256]⟩
abbrev S_ : Shape := ⟨0, ![]⟩
abbrev S8192 : Shape := ⟨1, ![8192]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S8192x4096_S8192_d1 : S8192x4096.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x4096 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_cst_6 : FVec F S_ .f32 := constant S_ .f32 0x00000000#32
  let main_v19 : FVec F S8192 .f32 := (fun x v => Host.reduceAdd x v reducesTo_S8192x4096_S8192_d1 h_S_) main_arg1 main_cst_6
  let main_cst_7 : FVec F S_ .f32 := constant S_ .f32 0x358637BD#32
  let main_v20 : FVec F S8192 .f32 := broadcastInDim S8192 ![] bcast_S_S8192 main_cst_7
  let main_v21 : FVec F S8192 .f32 := addf main_v19 main_v20
  let main_cst_8 : FVec F S_ .f32 := constant S_ .f32 0x00000000#32
  let main_v22 : FVec F S8192 .f32 := broadcastInDim S8192 ![] bcast_S_S8192 main_cst_8
  let main_v23 : IVec S8192 1 := cmpf .ogt main_v21 main_v22
  let main_c_9 : IVec S_ 1 := constantI S_ 1 1#1
  let main_v24 : IVec S_ 1 := (fun x v => Host.reduce IntOp.andi x v reducesTo_S8192_S_d0 h_S_) main_v23 main_c_9
  let main_v25 : IVec S_ 1 := andi main_v18 main_v24
  main_v25

def fn {F : FTy → Type} [FloatOps F] (main_arg0 : FVec F S8192x256 .f32) (main_arg1 : FVec F S8192x4096 .f32) (main_arg2 : FVec F S256x256 .f32) (main_arg3 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_v13 main_v16
-- ==== Kernel.lean ====
abbrev S8192x256 : Shape := ⟨2, ![8192, 256]⟩
abbrev S8192x4096 : Shape := ⟨2, ![8192, 4096]⟩
abbrev S256x256 : Shape := ⟨2, ![256, 256]⟩
abbrev S256 : Shape := ⟨1, ![256]⟩
abbrev S8192x1 : Shape := ⟨2, ![8192, 1]⟩
abbrev S2x4096x256 : Shape := ⟨3, ![2, 4096, 256]⟩
abbrev S2x1x4096 : Shape := ⟨3, ![2, 1, 4096]⟩
abbrev S512x4096 : Shape := ⟨2, ![512, 4096]⟩
abbrev S512x256 : Shape := ⟨2, ![512, 256]⟩
abbrev S512x1 : Shape := ⟨2, ![512, 1]⟩
abbrev S1x4096x256 : Shape := ⟨3, ![1, 4096, 256]⟩
abbrev S1x1x4096 : Shape := ⟨3, ![1, 1, 4096]⟩
abbrev S4096x256 : Shape := ⟨2, ![4096, 256]⟩
abbrev S1x4096 : Shape := ⟨2, ![1, 4096]⟩
abbrev S512 : Shape := ⟨1, ![512]⟩
abbrev S4096 : Shape := ⟨1, ![4096]⟩
abbrev S4096x1 : Shape := ⟨2, ![4096, 1]⟩
abbrev S_ : Shape := ⟨0, ![]⟩
abbrev S1x256 : Shape := ⟨2, ![1, 256]⟩

abbrev nBuf : Space → Nat
  | .hbm => 30
  | .vmem => 19
  | .smem => 0
  | _ => 0

abbrev bufTy : (tb : Table) → Fin (tcTables nBuf tb) → BufTy
  | .hbm, ⟨0, _⟩ => ⟨S8192x256, .f32⟩
  | .hbm, ⟨1, _⟩ => ⟨S8192x4096, .f32⟩
  | .hbm, ⟨2, _⟩ => ⟨S256x256, .f32⟩
  | .hbm, ⟨3, _⟩ => ⟨S256, .f32⟩
  | .hbm, ⟨4, _⟩ => ⟨S8192x1, .f32⟩
  | .hbm, ⟨5, _⟩ => ⟨S2x4096x256, .f32⟩
  | .hbm, ⟨6, _⟩ => ⟨S2x1x4096, .f32⟩
  | .hbm, ⟨7, _⟩ => ⟨S1x4096x256, .f32⟩
  | .hbm, ⟨8, _⟩ => ⟨S4096x256, .f32⟩
  | .hbm, ⟨9, _⟩ => ⟨S1x4096x256, .f32⟩
  | .hbm, ⟨10, _⟩ => ⟨S4096x256, .f32⟩
  | .hbm, ⟨11, _⟩ => ⟨S4096x256, .f32⟩
  | .hbm, ⟨12, _⟩ => ⟨S1x1x4096, .f32⟩
  | .hbm, ⟨13, _⟩ => ⟨S4096, .f32⟩
  | .hbm, ⟨14, _⟩ => ⟨S1x1x4096, .f32⟩
  | .hbm, ⟨15, _⟩ => ⟨S4096, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x256, .f32⟩
  | .hbm, ⟨25, _⟩ => ⟨S4096x256, .f32⟩
  | .hbm, ⟨26, _⟩ => ⟨S4096x256, .bf16⟩
  | .hbm, ⟨27, _⟩ => ⟨S256x256, .bf16⟩
  | .hbm, ⟨28, _⟩ => ⟨S1x256, .f32⟩
  | .hbm, ⟨29, _⟩ => ⟨S8192x256, .f32⟩
  | .local _ .vmem, ⟨0, _⟩ => ⟨S512x4096, .f32⟩
  | .local _ .vmem, ⟨1, _⟩ => ⟨S512x4096, .f32⟩
  | .local _ .vmem, ⟨2, _⟩ => ⟨S512x256, .f32⟩
  | .local _ .vmem, ⟨3, _⟩ => ⟨S512x256, .f32⟩
  | .local _ .vmem, ⟨4, _⟩ => ⟨S512x1, .f32⟩
  | .local _ .vmem, ⟨5, _⟩ => ⟨S512x1, .f32⟩
  | .local _ .vmem, ⟨6, _⟩ => ⟨S1x4096x256, .f32⟩
  | .local _ .vmem, ⟨7, _⟩ => ⟨S1x4096x256, .f32⟩
  | .local _ .vmem, ⟨8, _⟩ => ⟨S1x1x4096, .f32⟩
  | .local _ .vmem, ⟨9, _⟩ => ⟨S1x1x4096, .f32⟩
  | .local _ .vmem, ⟨10, _⟩ => ⟨S512x4096, .f32⟩
  | .local _ .vmem, ⟨11, _⟩ => ⟨S512x4096, .f32⟩
  | .local _ .vmem, ⟨12, _⟩ => ⟨S4096x256, .bf16⟩
  | .local _ .vmem, ⟨13, _⟩ => ⟨S512x1, .f32⟩
  | .local _ .vmem, ⟨14, _⟩ => ⟨S512x1, .f32⟩
  | .local _ .vmem, ⟨15, _⟩ => ⟨S256x256, .bf16⟩
  | .local _ .vmem, ⟨16, _⟩ => ⟨S1x256, .f32⟩
  | .local _ .vmem, ⟨17, _⟩ => ⟨S512x256, .f32⟩
  | .local _ .vmem, ⟨18, _⟩ => ⟨S512x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  shapeCasts_S4096x256_S1x4096x256 : S4096x256.ShapeCasts S1x4096x256
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  inb_S512x256_S512x256_0_0 : ∀ a, (![0, 0] : Fin 2 → Nat) a + S512x256.size a ≤ S512x256.size a
  h_S512x256 : 0 < S512x256.numel
  broadcasts_S512x1_S512x256 : S512x1.Broadcasts S512x256
  reduces_S512x4096_S4096 : S512x4096.Reduces [0] S4096
  shapeCasts_S4096_S1x4096 : S4096.ShapeCasts S1x4096
  bitsLt_bf16_f32 : FTy.bits .bf16 < FTy.bits .f32
  slices_S2x4096x256_S1x4096x256_0_0_0 : S2x4096x256.Slices ![0, 0, 0] S1x4096x256
  slices_S2x4096x256_S1x4096x256_1_0_0 : S2x4096x256.Slices ![1, 0, 0] S1x4096x256
  slices_S2x1x4096_S1x1x4096_0_0_0 : S2x1x4096.Slices ![0, 0, 0] S1x1x4096
  shapeCasts_S1x1x4096_S4096 : S1x1x4096.ShapeCasts S4096
  slices_S2x1x4096_S1x1x4096_1_0_0 : S2x1x4096.Slices ![1, 0, 0] S1x1x4096
  shapeCasts_S4096_S4096x1 : S4096.ShapeCasts S4096x1
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S512x1_S512x1 : S512x1.ShapeCasts S512x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  dot_S512x4096_S512x256_S4096x256_0_0_1_1_n_n_wf : DotDims.WF S512x4096 S512x256 S4096x256 [0] [0] [1] [1] [] []
  dot_S512x4096_S4096x256_S512x256_1_0_0_1_n_n_wf : DotDims.WF S512x4096 S4096x256 S512x256 [1] [0] [0] [1] [] []
  dot_S512x256_S256x256_S512x256_1_1_0_0_n_n_wf : DotDims.WF S512x256 S256x256 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x256.size a ≤ S2x4096x256.size a
  hwx0_3 : ∀ i : grid0.Coords, EltTy.bits .f32 = 32 ∨ (Rect.block (s := S2x4096x256) S1x4096x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x4096.size a ≤ S2x1x4096.size a
  hwx0_4 : ∀ i : grid0.Coords, EltTy.bits .f32 = 32 ∨ (Rect.block (s := S2x1x4096) S1x1x4096.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S8192x256.size a
  hwx1_5 : ∀ i : grid1.Coords, EltTy.bits .f32 = 32 ∨ (Rect.block (s := S8192x256) S512x256.size (cc1_transform_5 i) (hinb1_5 i)).WholeWords (EltTy.packing .f32)

variable [Facts₀]

def dot_S512x4096_S512x256_S4096x256_0_0_1_1_n_n : DotDims S512x4096 S512x256 S4096x256 where
  lhsContracting := [0]
  rhsContracting := [0]
  lhsNonContracting := [1]
  rhsNonContracting := [1]
  lhsBatch := []
  rhsBatch := []
  wf := dot_S512x4096_S512x256_S4096x256_0_0_1_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x256_S512x256_1_1_0_0_n_n : DotDims S512x256 S256x256 S512x256 where
  lhsContracting := [1]
  rhsContracting := [1]
  lhsNonContracting := [0]
  rhsNonContracting := [0]
  lhsBatch := []
  rhsBatch := []
  wf := dot_S512x256_S256x256_S512x256_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x4096x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S512x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x256 : Shape := ⟨2, ![8192, 256]⟩
abbrev S8192x4096 : Shape := ⟨2, ![8192, 4096]⟩
abbrev S256x256 : Shape := ⟨2, ![256, 256]⟩
abbrev S256 : Shape := ⟨1, ![256]⟩
abbrev S_ : Shape := ⟨0, ![]⟩
abbrev S4096 : Shape := ⟨1, ![4096]⟩
abbrev S8192 : Shape := ⟨1, ![8192]⟩
abbrev S8192x1 : Shape := ⟨2, ![8192, 1]⟩
abbrev S4096x1 : Shape := ⟨2, ![4096, 1]⟩
abbrev S4096x8192 : Shape := ⟨2, ![4096, 8192]⟩
abbrev S4096x256 : Shape := ⟨2, ![4096, 256]⟩
abbrev S1x256 : Shape := ⟨2, ![1, 256]⟩

abbrev nBuf : Space → Nat
  | .hbm => 37
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x4096, .f32⟩
  | .hbm, ⟨2, _⟩ => ⟨S256x256, .f32⟩
  | .hbm, ⟨3, _⟩ => ⟨S256, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192x1, .f32⟩
  | .hbm, ⟨21, _⟩ => ⟨S8192x256, .f32⟩
  | .hbm, ⟨22, _⟩ => ⟨S8192x256, .f32⟩
  | .hbm, ⟨23, _⟩ => ⟨S4096x1, .f32⟩
  | .hbm, ⟨24, _⟩ => ⟨S4096x8192, .f32⟩
  | .hbm, ⟨25, _⟩ => ⟨S4096x256, .f32⟩
  | .hbm, ⟨26, _⟩ => ⟨S4096x256, .f32⟩
  | .hbm, ⟨27, _⟩ => ⟨S4096x256, .f32⟩
  | .hbm, ⟨28, _⟩ => ⟨S8192x1, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S256x256, .f32⟩
  | .hbm, ⟨33, _⟩ => ⟨S8192x256, .f32⟩
  | .hbm, ⟨34, _⟩ => ⟨S1x256, .f32⟩
  | .hbm, ⟨35, _⟩ => ⟨S8192x256, .f32⟩
  | .hbm, ⟨36, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_v7 : Ref sig .tc := ⟨.hbm, 16, rfl⟩
abbrev main_cst_4 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  reducesTo_S8192x4096_S4096_d0 : S8192x4096.ReducesTo [0] S4096
  h_S_ : 0 < S_.numel
  reducesTo_S8192x4096_S8192_d1 : S8192x4096.ReducesTo [1] S8192
  bcast_S_S4096 : S_.BroadcastsInDim S4096 (![] : Fin 0 → Fin S4096.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S4096_S4096x1_0 : S4096.BroadcastsInDim S4096x1 (![0] : Fin 1 → Fin S4096x1.rank)
  transposes_S8192x4096_S4096x8192_1_0 : S8192x4096.Transposes [1, 0] S4096x8192
  bcast_S4096x1_S4096x256_0_1 : S4096x1.BroadcastsInDim S4096x256 (![0, 1] : Fin 2 → Fin S4096x256.rank)
  transposes_S256x256_S256x256_1_0 : S256x256.Transposes [1, 0] S256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  dot_S4096x8192_S8192x256_S4096x256_1_0_0_1_n_n_wf : DotDims.WF S4096x8192 S8192x256 S4096x256 [1] [0] [0] [1] [] []
  dot_S8192x4096_S4096x256_S8192x256_1_0_0_1_n_n_wf : DotDims.WF S8192x4096 S4096x256 S8192x256 [1] [0] [0] [1] [] []
  dot_S8192x256_S256x256_S8192x256_1_0_0_1_n_n_wf : DotDims.WF S8192x256 S256x256 S8192x256 [1] [0] [0] [1] [] []

variable [Facts₀]

def dot_S4096x8192_S8192x256_S4096x256_1_0_0_1_n_n : DotDims S4096x8192 S8192x256 S4096x256 where
  lhsContracting := [1]
  rhsContracting := [0]
  lhsNonContracting := [0]
  rhsNonContracting := [1]
  lhsBatch := []
  rhsBatch := []
  wf := dot_S4096x8192_S8192x256_S4096x256_1_0_0_1_n_n_wf
def dot_S8192x4096_S4096x256_S8192x256_1_0_0_1_n_n : DotDims S8192x4096 S4096x256 S8192x256 where
  lhsContracting := [1]
  rhsContracting := [0]
  lhsNonContracting := [0]
  rhsNonContracting := [1]
  lhsBatch := []
  rhsBatch := []
  wf := dot_S8192x4096_S4096x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.KernelRun.lean ====
/-
  The whole program's run with its result named.

  The program is two kernel launches with a stretch of host operations between them. Every weakly fair execution
  from a memory with zero counters terminates without a fault; at the end every unscoped buffer holds the contents
  obtained by folding the three segments over the launch memory: the first launch's arrays at what its write-backs
  leave, then the host operations applied, then the second launch's arrays at what its write-backs leave. Read at
  the result buffer and at the four arguments this gives the statement below; the arguments are written by nothing.
-/
import proofs.«112070_j17111149707406_2_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last segment boundary's contents, the arguments as launched. -/
theorem run : θ_run defs (onTc (τ := τ) (main (F := F))) ⟨m, fun _ => 0, ρ⟩ (fun r => ∀ c : Dev nD,
      r.2.mem ((c.tc : Thread nD τ).loc main_v21) = W3 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v21 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Result

end
-- ==== Proof.Pieces.lean ====
/-
  What the first kernel's body leaves in its three output buffers, case by case, as pure functions of what it loaded.

  The body has two control cases. At the first point of each core's run (grid coordinate 1 equal to 0) it first
  stores zeros into both accumulators and then accumulates into them; at every other point it accumulates into
  what the point before left. In both cases the column of inverse square roots of the row sums depends on the
  current row block of H alone. So:

    first point of a run:   column = s(H_blk),  T-acc = acc(H_blk, x_blk, 0),     d-acc = colsum(H_blk, 0)
    any other point:        column = s(H_blk),  T-acc = acc(H_blk, x_blk, T_prev), d-acc = colsum(H_blk, d_prev)

  where s, acc and colsum are the body's own arithmetic (the payload terms of the generated skeleton) and 0 is
  the stored zero block. Everything here holds for any float instance.
-/
import proofs.«112070_j17111149707406_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Away from the first point of a run the column output is the inverse-square-root column of the current row block. -/
theorem col_B (c : Dev nD) (i : grid0.Coords) (a2 : Memref sig .tc .vmem S512x4096 .f32) (h2 : a2.IsWhole)
    (a3 : Memref sig .tc .vmem S512x256 .f32) (h3 : a3.IsWhole) (a4 : Memref sig .tc .vmem S512x1 .f32) (h4 : a4.IsWhole)
    (a5 : Memref sig .tc .vmem S1x4096x256 .f32) (h5 : a5.IsWhole) (a6 : Memref sig .tc .vmem S1x1x4096 .f32) (h6 : a6.IsWhole)
    (hc : ¬cond0_0 i) (x0 : Vec F S512x4096 .f32) (x1 : Vec F S512x256 .f32) (xo3 : Vec F S1x4096x256 .f32)
    (xo4 : Vec F S1x1x4096 .f32) :
    out0_B_2 c i a2 h2 a3 h3 a4 h4 a5 h5 a6 h6 hc x0 x1 xo3 xo4 = k0_pay3 x0 := by
  unfold out0_B_2
  rw [View.read_writes_eq_canon _ _ _ (cover0_B_2 c i a2 h2 a3 h3 a4 h4 a5 h5 a6 h6 hc x0 x1 xo3 xo4)]
  unfold kernelRun0_B
  dsimp only
  rw [View.canon_unit_zero hz2]
  simp only [View.readAt_eq_ld, h2.read_unread, View.ld_unit_zero (S := S512x4096) hz2]

/-- Away from the first point of a run the T accumulator is what the point before left plus this block's product. -/
theorem tacc_B (c : Dev nD) (i : grid0.Coords) (a2 : Memref sig .tc .vmem S512x4096 .f32) (h2 : a2.IsWhole)
    (a3 : Memref sig .tc .vmem S512x256 .f32) (h3 : a3.IsWhole) (a4 : Memref sig .tc .vmem S512x1 .f32) (h4 : a4.IsWhole)
    (a5 : Memref sig .tc .vmem S1x4096x256 .f32) (h5 : a5.IsWhole) (a6 : Memref sig .tc .vmem S1x1x4096 .f32) (h6 : a6.IsWhole)
    (hc : ¬cond0_0 i) (x0 : Vec F S512x4096 .f32) (x1 : Vec F S512x256 .f32) (xo3 : Vec F S1x4096x256 .f32)
    (xo4 : Vec F S1x1x4096 .f32) :
    out0_B_3 c i a2 h2 a3 h3 a4 h4 a5 h5 a6 h6 hc x0 x1 xo3 xo4 = k0_pay5 x0 x1 xo3 := by
  unfold out0_B_3
  rw [View.read_writes_eq_canon _ _ _ (cover0_B_3 c i a2 h2 a3 h3 a4 h4 a5 h5 a6 h6 hc x0 x1 xo3 xo4)]
  unfold kernelRun0_B
  dsimp only
  rw [View.canon_unit_zero hz3]
  simp only [View.readAt_eq_ld, h2.read_unread, h3.read_unread, h5.read_unread, h6.read_unread,
    View.ld_unit_zero (S := S512x4096) hz2, View.ld_unit_zero (S := S512x256) hz2,
    View.ld_unit_zero (S := S1x4096x256) hz3, View.ld_unit_zero (S := S1x1x4096) hz3]

/-- Away from the first point of a run the column-sum accumulator is what the point before left plus this block's column sums. -/
theorem dacc_B (c : Dev nD) (i : grid0.Coords) (a2 : Memref sig .tc .vmem S512x4096 .f32) (h2 : a2.IsWhole)
    (a3 : Memref sig .tc .vmem S512x256 .f32) (h3 : a3.IsWhole) (a4 : Memref sig .tc .vmem S512x1 .f32) (h4 : a4.IsWhole)
    (a5 : Memref sig .tc .vmem S1x4096x256 .f32) (h5 : a5.IsWhole) (a6 : Memref sig .tc .vmem S1x1x4096 .f32) (h6 : a6.IsWhole)
    (hc : ¬cond0_0 i) (x0 : Vec F S512x4096 .f32) (x1 : Vec F S512x256 .f32) (xo3 : Vec F S1x4096x256 .f32)
    (xo4 : Vec F S1x1x4096 .f32) :
    out0_B_4 c i a2 h2 a3 h3 a4 h4 a5 h5 a6 h6 hc x0 x1 xo3 xo4 = k0_pay4 x0 xo4 := by
  unfold out0_B_4
  rw [View.read_writes_eq_canon _ _ _ (cover0_B_4 c i a2 h2 a3 h3 a4 h4 a5 h5 a6 h6 hc x0 x1 xo3 xo4)]
  unfold kernelRun0_B
  dsimp only
  rw [View.canon_unit_zero hz3]
  simp only [View.readAt_eq_ld, h2.read_unread, h3.read_unread, h5.read_unread, h6.read_unread,
    View.ld_unit_zero (S := S512x4096) hz2, View.ld_unit_zero (S := S512x256) hz2,
    View.ld_unit_zero (S := S1x4096x256) hz3, View.ld_unit_zero (S := S1x1x4096) hz3]

/-- At the first point of a run the column output is again the inverse-square-root column of the current row block. -/
theorem col_A (c : Dev nD) (i : grid0.Coords) (a2 : Memref sig .tc .vmem S512x4096 .f32) (h2 : a2.IsWhole)
    (a3 : Memref sig .tc .vmem S512x256 .f32) (h3 : a3.IsWhole) (a4 : Memref sig .tc .vmem S512x1 .f32) (h4 : a4.IsWhole)
    (a5 : Memref sig .tc .vmem S1x4096x256 .f32) (h5 : a5.IsWhole) (a6 : Memref sig .tc .vmem S1x1x4096 .f32) (h6 : a6.IsWhole)
    (hc : cond0_0 i) (x0 : Vec F S512x4096 .f32) (x1 : Vec F S512x256 .f32) :
    out0_A_2 c i a2 h2 a3 h3 a4 h4 a5 h5 a6 h6 hc x0 x1 = k0_pay3 x0 := by
  unfold out0_A_2
  rw [View.read_writes_eq_canon _ _ _ (cover0_A_2 c i a2 h2 a3 h3 a4 h4 a5 h5 a6 h6 hc x0 x1)]
  unfold kernelRun0_A
  dsimp only
  rw [View.canon_unit_zero hz2]
  simp only [View.readAt_eq_ld, h2.read_unread, View.ld_unit_zero (S := S512x4096) hz2]

/-- At the first point of a run the T accumulator is the stored zero block plus this block's product: the body reads
    back the zeros it has just stored. -/
theorem tacc_A (c : Dev nD) (i : grid0.Coords) (a2 : Memref sig .tc .vmem S512x4096 .f32) (h2 : a2.IsWhole)
    (a3 : Memref sig .tc .vmem S512x256 .f32) (h3 : a3.IsWhole) (a4 : Memref sig .tc .vmem S512x1 .f32) (h4 : a4.IsWhole)
    (a5 : Memref sig .tc .vmem S1x4096x256 .f32) (h5 : a5.IsWhole) (a6 : Memref sig .tc .vmem S1x1x4096 .f32) (h6 : a6.IsWhole)
    (hc : cond0_0 i) (x0 : Vec F S512x4096 .f32) (x1 : Vec F S512x256 .f32) :
    out0_A_3 c i a2 h2 a3 h3 a4 h4 a5 h5 a6 h6 hc x0 x1 = k0_pay5 x0 x1 (k0_pay1 (F := F)) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x4096x256) hz3, View.readCov_unit_zero (S := S1x4096x256) _ hz3]
  simp only [View.readAt_eq_ld, h2.read_unread, h3.read_unread, h5.read_unread, h6.read_unread,
    View.ld_unit_zero (S := S512x4096) hz2, View.ld_unit_zero (S := S512x256) hz2,
    View.ld_unit_zero (S := S1x4096x256) hz3, View.ld_unit_zero (S := S1x1x4096) hz3]

/-- At the first point of a run the column-sum accumulator is the stored zero row plus this block's column sums. -/
theorem dacc_A (c : Dev nD) (i : grid0.Coords) (a2 : Memref sig .tc .vmem S512x4096 .f32) (h2 : a2.IsWhole)
    (a3 : Memref sig .tc .vmem S512x256 .f32) (h3 : a3.IsWhole) (a4 : Memref sig .tc .vmem S512x1 .f32) (h4 : a4.IsWhole)
    (a5 : Memref sig .tc .vmem S1x4096x256 .f32) (h5 : a5.IsWhole) (a6 : Memref sig .tc .vmem S1x1x4096 .f32) (h6 : a6.IsWhole)
    (hc : cond0_0 i) (x0 : Vec F S512x4096 .f32) (x1 : Vec F S512x256 .f32) :
    out0_A_4 c i a2 h2 a3 h3 a4 h4 a5 h5 a6 h6 hc x0 x1 = k0_pay4 x0 (k0_pay2 (F := F)) := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x1x4096) hz3, View.readCov_unit_zero (S := S1x1x4096) _ hz3]
  simp only [View.readAt_eq_ld, h2.read_unread, h3.read_unread, h5.read_unread, h6.read_unread,
    View.ld_unit_zero (S := S512x4096) hz2, View.ld_unit_zero (S := S512x256) hz2,
    View.ld_unit_zero (S := S1x4096x256) hz3, View.ld_unit_zero (S := S1x1x4096) hz3]

end Cert.KernelIdeal.Pieces

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

/-!
# Keepdims columns, a row sum and a plain matrix product, read at an index

General facts about layout operations on small ranks, in the style of the library's
`shapeCast_a_1a_apply` and `broadcastTo_1b_ab_apply`:

* an `[a]` vector cast to the column `[a, 1]` reads, at `(i, u)`, the vector at `i`;
* a column `[a, 1]` broadcast to `[a, b]` reads, at `(p, c)`, the column at `(p, 0)`;
* over the extended reals, a sum over the last axis of an `[a, b]` array into `[a]`, read at `i`, is the
  sum over `k < b` of the array at `(i, k)`.
-/

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims

end
-- ==== Proof.LibRowReads.lean ====
import Idealize.ShloMosaic.Lib.Pipeline.Value
import Idealize.ShloMosaic.Lib.ValueIdx
import Idealize.ShloMosaic.Lib.Affine
import Idealize.ShloMosaic.PureOps.Ideal.Laws

/-!
# Rows of a matrix: sums and maxima along the last axis, and a comparison bit as a number

General facts, over the extended reals, about an `[a, b]` array reduced along its last axis, read at a row:

* a kernel's lane sum is the sum of the row; a kernel's lane maximum and the host's maximum-reduce are the fold of
  `max` over the row from the initial value;
* the bit of an integer equality test, widened and read as a signed or as an unsigned integer, is 1 or 0;
* two naturals below `2 ^ 32` have equal 32-bit words only if they are equal.
-/

noncomputable section

open Idealize.ShloMosaic Idealize.ShloMosaic.ValueIdx

namespace Cert.RowReads

/-- Putting column `k` back into the reduced index `r` gives `(r, k)`. -/
theorem lift_last {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

/-- A lane sum of an `[a, b]` matrix, read at row `r`, is the sum of that row. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_last h r k)

/-- A lane maximum of an `[a, b]` matrix, read at row `r`, is the fold of `max` over that row from the
    accumulator's value. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (r : Fin a) :
    multiReduction .maximumf [1] ⟨1, ![a]⟩ src acc h hφ hacc (ix1 r)
      = (Finset.univ : Finset (Fin b)).fold max (Ideal.ofBits .f32 acc) (fun k => src (ix2 r k)) := by
  rw [Ideal.multiReduction_maximumf_single]
  exact congrArg (fun f => Finset.fold max (Ideal.ofBits .f32 acc) f (Finset.univ : Finset (Fin b)))
    (funext fun k => congrArg src (lift_last h r k))

/-- The host's maximum-reduce of an `[a, b]` matrix along its last axis, read at row `r`: the same fold, from the
    initial value's one element. -/
theorem hostRowMax_apply {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_last h r k))

/-! ## A comparison bit as a number -/

/-- The mask entry of two words: 1 when they are equal, else 0. -/
def mask01 (x y : BitVec 32) : EReal := if x = y then 1 else 0

/-- The comparison bit widened to a word and read as a signed integer is that mask entry. -/
theorem sext_cmpi_eq (x y : BitVec 32) :
    ((((IntOp.cmpi .eq x y).setWidth 32).toInt : ℝ) : EReal) = mask01 x y := by
  unfold mask01
  by_cases h : x = y
  · rw [IntOp.cmpi_eq.mpr h, if_pos h, show ((1#1 : BitVec 1).setWidth 32).toInt = 1 by decide]
    simp
  · rw [eq_zero_of_ne_one (fun hc => h (IntOp.cmpi_eq.mp hc)), if_neg h,
      show ((0#1 : BitVec 1).setWidth 32).toInt = 0 by decide]
    simp

/-- The comparison bit read as an unsigned integer is the same mask entry. -/
theorem uext_cmpi_eq (x y : BitVec 32) : ((((IntOp.cmpi .eq x y).toNat : ℝ)) : EReal) = mask01 x y := by
  unfold mask01
  by_cases h : x = y
  · rw [IntOp.cmpi_eq.mpr h, if_pos h, show (1#1 : BitVec 1).toNat = 1 by decide]
    simp
  · rw [eq_zero_of_ne_one (fun hc => h (IntOp.cmpi_eq.mp hc)), if_neg h, show (0#1 : BitVec 1).toNat = 0 by decide]
    simp

/-- Naturals below `2 ^ 32` with the same 32-bit word are equal. -/
theorem ofNat32_inj {p q : ℕ} (hp : p < 2 ^ 32) (hq : q < 2 ^ 32) : BitVec.ofNat 32 p = BitVec.ofNat 32 q ↔ p = q := by
  constructor
  · intro h
    have h2 := congrArg BitVec.toNat h
    simp only [BitVec.toNat_ofNat] at h2
    rwa [Nat.mod_eq_of_lt hp, Nat.mod_eq_of_lt hq] at h2
  · intro h; rw [h]

end Cert.RowReads

end
-- ==== Proof.BodyA.lean ====
/-
  The first kernel's arithmetic at one entry, over the extended reals.

  With a row block Hb (512 x 4096) of the incidence matrix and the matching row block Xb (512 x 256) of the features:

    column r        = 1 / sqrt (sum_e Hb r e + eps)
    d-acc' e        = d-acc e + sum_r Hb r e
    T-acc' e k      = T-acc e k + sum_r Hb r e * (column r * Xb r k)

  (a change of float format is the identity, and the matrix product into a zero accumulator is the plain sum), and
  the zero blocks stored at the first point of a run are zero at every entry.
-/
import proofs.«112070_j17111149707406_2_alg».proof.Proof.Gen.KernelIdeal.Skeleton
import proofs.«112070_j17111149707406_2_alg».proof.Proof.LibKeepdims
import proofs.«112070_j17111149707406_2_alg».proof.Proof.LibRowReads
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.KernelIdeal.BodyA

open Cert.KernelIdeal Cert.KernelIdeal.Gen

/-- Putting row `k` back into a reduced column index `c` gives `(k, c)`. -/
theorem lift_first {a b : ℕ} (h : (⟨2, ![a, b]⟩ : Shape).Reduces [0] ⟨1, ![b]⟩) (c : Fin b)
    (k : Fin ((⟨2, ![a, b]⟩ : Shape).size 0)) : h.lift (ix1 c) k = ix2 (⟨k.val, k.isLt⟩ : Fin a) c := by
  funext d; apply Fin.ext
  fin_cases d <;> rfl

/-- A sum over the rows of an `[a, b]` matrix, read at column `c`, is the sum of that column. -/
theorem colSum_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.add.neutral .f32 hφ)
    (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_first h c k)

/-- The inverse-square-root column at row `r`. -/
theorem col_apply (x0 : FVec Ideal S512x4096 .f32) (r : Fin 512) (u : Fin 1) :
    k0_pay3 (F := Ideal) x0 (ix2 r u)
      = Ideal.rsqrt ((∑ e : Fin 4096, x0 (ix2 r e)) + Ideal.ofBits .f32 0x358637BD#32) := by
  unfold k0_pay3
  refine congrArg (fun z => Ideal.rsqrt (z + Ideal.ofBits .f32 0x358637BD#32)) ?_
  exact (Cert.Keepdims.shapeCast_a_a1_apply _ _ r u).trans (Cert.RowReads.rowSum_apply x0 _ _ _ _ r)

/-- The zero blocks stored at the first point of a run are zero at every entry. -/
theorem zeroT_apply (j : S1x4096x256.Idx) : k0_pay1 (F := Ideal) j = Ideal.ofBits .f32 0x00000000#32 := rfl
theorem zeroD_apply (j : S1x1x4096.Idx) : k0_pay2 (F := Ideal) j = Ideal.ofBits .f32 0x00000000#32 := rfl

/-- The column-sum accumulator at column `e`: what it held plus the block's column sum. -/
theorem dacc_apply (x0 : FVec Ideal S512x4096 .f32) (v15 : FVec Ideal S1x1x4096 .f32) (a b : Fin 1) (e : Fin 4096) :
    k0_pay4 (F := Ideal) x0 v15 (ix3 a b e) = v15 (ix3 a b e) + ∑ r : Fin 512, x0 (ix2 r e) := by
  have ha : a.val = 0 := by omega
  have hb : b.val = 0 := by omega
  unfold k0_pay4
  refine (shapeCast_apply _ _ (ix3 a b e) (ix2 (0 : Fin 1) e) ?_).trans ?_
  · rw [Shape.rowMajor_val_two, Shape.rowMajor_val_three]
    show (0 : ℕ) * 4096 + e.val = (a.val * 1 + b.val) * 4096 + e.val
    rw [ha, hb]
  · refine (addf_apply _ _ _).trans (congrArg₂ (· + ·) ?_ ?_)
    · refine shapeCast_apply v15 _ (ix2 (0 : Fin 1) e) (ix3 a b e) ?_
      rw [Shape.rowMajor_val_two, Shape.rowMajor_val_three]
      show (a.val * 1 + b.val) * 4096 + e.val = (0 : ℕ) * 4096 + e.val
      rw [ha, hb]
    · refine (shapeCast_apply _ _ (ix2 (0 : Fin 1) e) (ix1 e) ?_).trans (colSum_apply x0 _ _ _ _ e)
      rw [Shape.rowMajor_val_two, Shape.rowMajor_val_one]
      show e.val = (0 : ℕ) * 4096 + e.val
      omega

/-! ### The block product: H_blk transposed times the scaled feature block -/

theorem lhs0 (i : S4096x256.Idx) (q : dot_S512x4096_S512x256_S4096x256_0_0_1_1_n_n.contr.Idx) :
    (dot_S512x4096_S512x256_S4096x256_0_0_1_1_n_n.lhsIdx i q 0).val = (q ⟨0, by decide⟩).val :=
  dot_S512x4096_S512x256_S4096x256_0_0_1_1_n_n.lhsIdx_val_of_single rfl i q
theorem lhs1 (i : S4096x256.Idx) (q : dot_S512x4096_S512x256_S4096x256_0_0_1_1_n_n.contr.Idx) :
    (dot_S512x4096_S512x256_S4096x256_0_0_1_1_n_n.lhsIdx i q 1).val = (i 0).val := by
  unfold DotDims.lhsIdx
  rw [dif_neg (show ¬(1 : Fin S512x4096.rank) ∈ dot_S512x4096_S512x256_S4096x256_0_0_1_1_n_n.lhsBatch by decide), dif_pos (show (1 : Fin S512x4096.rank) ∈ dot_S512x4096_S512x256_S4096x256_0_0_1_1_n_n.lhsNonContracting by decide)]
  rfl
theorem rhs0 (i : S4096x256.Idx) (q : dot_S512x4096_S512x256_S4096x256_0_0_1_1_n_n.contr.Idx) :
    (dot_S512x4096_S512x256_S4096x256_0_0_1_1_n_n.rhsIdx i q 0).val = (q ⟨0, by decide⟩).val :=
  dot_S512x4096_S512x256_S4096x256_0_0_1_1_n_n.rhsIdx_val_of_single rfl i q
theorem rhs1 (i : S4096x256.Idx) (q : dot_S512x4096_S512x256_S4096x256_0_0_1_1_n_n.contr.Idx) :
    (dot_S512x4096_S512x256_S4096x256_0_0_1_1_n_n.rhsIdx i q 1).val = (i 1).val := by
  unfold DotDims.rhsIdx
  rw [dif_neg (show ¬(1 : Fin S512x256.rank) ∈ dot_S512x4096_S512x256_S4096x256_0_0_1_1_n_n.rhsBatch by decide), dif_pos (show (1 : Fin S512x256.rank) ∈ dot_S512x4096_S512x256_S4096x256_0_0_1_1_n_n.rhsNonContracting by decide)]
  rfl

/-- The product of the transposed row block with a 512 x 256 block, into a zero accumulator, at `(e, k)`. -/
theorem blockProduct_apply (l : FVec Ideal S512x4096 .bf16) (rr : FVec Ideal S512x256 .bf16) (e : Fin 4096) (k : Fin 256) :
    matmul dot_S512x4096_S512x256_S4096x256_0_0_1_1_n_n none l rr (constant (F := Ideal) S4096x256 .f32 0x00000000#32) (ix2 e k)
      = ∑ r : Fin 512, l (ix2 r e) * rr (ix2 r k) := by
  refine (Ideal.matmul_constant_zero_apply dot_S512x4096_S512x256_S4096x256_0_0_1_1_n_n none l rr (ix2 e k)).trans ?_
  rw [← Equiv.sum_comp (ValueIdx.contrEquiv1 dot_S512x4096_S512x256_S4096x256_0_0_1_1_n_n 512 rfl rfl).symm]
  refine Finset.sum_congr rfl fun r _ => ?_
  have hk := ValueIdx.contrEquiv1_symm_val dot_S512x4096_S512x256_S4096x256_0_0_1_1_n_n 512 rfl rfl r
  have el : dot_S512x4096_S512x256_S4096x256_0_0_1_1_n_n.lhsIdx (ix2 e k) ((ValueIdx.contrEquiv1 dot_S512x4096_S512x256_S4096x256_0_0_1_1_n_n 512 rfl rfl).symm r) = ix2 r e := funext fun a => Fin.ext (by
    match a with
    | ⟨0, _⟩ => exact (lhs0 _ _).trans hk
    | ⟨1, _⟩ => exact lhs1 _ _)
  have er : dot_S512x4096_S512x256_S4096x256_0_0_1_1_n_n.rhsIdx (ix2 e k) ((ValueIdx.contrEquiv1 dot_S512x4096_S512x256_S4096x256_0_0_1_1_n_n 512 rfl rfl).symm r) = ix2 r k := funext fun a => Fin.ext (by
    match a with
    | ⟨0, _⟩ => exact (rhs0 _ _).trans hk
    | ⟨1, _⟩ => exact rhs1 _ _)
  rw [el, er]

/-- The T accumulator at `(e, k)`: what it held plus the block's product at `(e, k)`. -/
theorem tacc_apply (x0 : FVec Ideal S512x4096 .f32) (x1 : FVec Ideal S512x256 .f32) (v24 : FVec Ideal S1x4096x256 .f32)
    (a : Fin 1) (e : Fin 4096) (k : Fin 256) :
    k0_pay5 (F := Ideal) x0 x1 v24 (ix3 a e k)
      = v24 (ix3 a e k) + ∑ r : Fin 512, x0 (ix2 r e) * (k0_pay3 (F := Ideal) x0 (ix2 r (0 : Fin 1)) * x1 (ix2 r k)) := by
  have ha : a.val = 0 := by omega
  unfold k0_pay5
  refine (shapeCast_apply _ _ (ix3 a e k) (ix2 e k) ?_).trans ?_
  · rw [Shape.rowMajor_val_two, Shape.rowMajor_val_three]
    show e.val * 256 + k.val = (a.val * 4096 + e.val) * 256 + k.val
    rw [ha]; omega
  · refine (addf_apply _ _ _).trans (congrArg₂ (· + ·) ?_ ?_)
    · refine shapeCast_apply v24 _ (ix2 e k) (ix3 a e k) ?_
      rw [Shape.rowMajor_val_two, Shape.rowMajor_val_three]
      show (a.val * 4096 + e.val) * 256 + k.val = e.val * 256 + k.val
      rw [ha]; omega
    · refine (blockProduct_apply _ _ e k).trans (Finset.sum_congr rfl fun r _ => ?_)
      refine congrArg (x0 (ix2 r e) * ·) ?_
      exact congrArg (· * x1 (ix2 r k)) (Cert.Keepdims.broadcastTo_a1_ab_apply (k0_pay3 (F := Ideal) x0) _ r k)

end Cert.KernelIdeal.BodyA

end
-- ==== Proof.LibSumBlocks.lean ====
/-
  Re-grouping a finite sum into consecutive blocks, in any commutative additive monoid (so in particular over the extended
  reals, where it needs no finiteness): a sum over J·B consecutive naturals is the sum over J blocks of B. This is the law
  behind a contraction that is accumulated block by block along its contracted axis (a K-blocked matrix product kept in an
  accumulator across grid points or loop trips) against ONE whole contraction.
-/
import Mathlib.Algebra.BigOperators.Fin

namespace Cert.LibSumBlocks

/-- A sum over `J * B` consecutive naturals is the sum over `J` blocks of `B`: term `x = j * B + s` is term `s` of block `j`. -/
theorem sum_range_blocks {M : Type*} [AddCommMonoid M] (g : ℕ → M) (B : ℕ) : ∀ J : ℕ,
    ∑ x ∈ Finset.range (J * B), g x = ∑ j ∈ Finset.range J, ∑ s ∈ Finset.range B, g (j * B + s)
  | 0 => by simp
  | J + 1 => by
    rw [Nat.succ_mul, Finset.sum_range_add, Finset.sum_range_succ, sum_range_blocks g B J]

/-- The same with the whole sum over the index type `Fin (J * B)` (the form a contraction read at an index has). -/
theorem sum_fin_blocks {M : Type*} [AddCommMonoid M] (g : ℕ → M) (B J : ℕ) :
    ∑ k : Fin (J * B), g k.val = ∑ j ∈ Finset.range J, ∑ s ∈ Finset.range B, g (j * B + s) :=
  (Finset.sum_range g).symm.trans (sum_range_blocks g B J)

end Cert.LibSumBlocks
-- ==== Proof.LibRegroup.lean ====
/-
  Two laws of finite sums in a commutative additive monoid (so over the extended reals, with no finiteness asked).

  * A quantity that is RESET at the first point of every run of J consecutive points and that ADDS that point's
    contribution to what the point before left at every other point is, j points into a run, the sum of the run's
    first j + 1 contributions.
  * A sum over A·B·C·D consecutive naturals, regrouped: the outer sums over the first and the LAST digit of the
    mixed-radix expansion n = ((a·B + b)·C + c)·D + d, the inner sums over the two middle digits. This is the order in
    which a per-lane accumulator over a two-level grid collects a flat array: lane d of core a sums over the
    sequential steps b and the rows c of each block.
-/
import Mathlib.Algebra.BigOperators.Fin
import proofs.«112070_j17111149707406_2_alg».proof.Proof.LibSumBlocks

namespace Cert.LibRegroup

/-- The running sum of a run of points: `f` is reset to the point's contribution `P` where `n % J = 0` and adds it
    elsewhere; at point `J·q + j` it holds the contributions of points `J·q … J·q + j`. -/
theorem run_sum {ι β : Type*} [AddCommMonoid β] {N : ℕ} (J : ℕ) (f P : (n : ℕ) → n < N → ι → β)
    (h0 : ∀ (n : ℕ) (h : n < N) (i : ι), n % J = 0 → f n h i = P n h i)
    (hs : ∀ (n : ℕ) (h : n + 1 < N) (i : ι), ¬(n + 1) % J = 0 →
      f (n + 1) h i = f n (Nat.lt_of_succ_lt h) i + P (n + 1) h i)
    (q : ℕ) (i : ι) : ∀ (j : ℕ) (_ : j < J) (h : J * q + j < N),
      f (J * q + j) h i = ∑ s : Fin (j + 1), P (J * q + s.val) (by have := s.isLt; omega) i
  | 0, _, h => by
    rw [Fin.sum_univ_castSucc, Fin.sum_univ_zero, zero_add]
    exact h0 _ h i (by rw [Nat.add_zero, Nat.mul_mod_right])
  | j + 1, hj, h => by
    have hne : ¬(J * q + j + 1) % J = 0 := by
      rw [Nat.add_assoc, Nat.mul_add_mod, Nat.mod_eq_of_lt hj]; exact Nat.succ_ne_zero j
    rw [Fin.sum_univ_castSucc]
    have ih := run_sum J f P h0 hs q i j (Nat.lt_of_succ_lt hj) (Nat.lt_of_succ_lt h)
    have step := hs (J * q + j) h i hne
    rw [ih] at step
    exact step

/-- A sum over `A·B·C·D` consecutive naturals by the digits of `n = ((a·B + b)·C + c)·D + d`, the first and the last
    digit outermost. -/
theorem sum_range_four {β : Type*} [AddCommMonoid β] (g : ℕ → β) (A B C D : ℕ) :
    ∑ n ∈ Finset.range (A * B * C * D), g n
      = ∑ a ∈ Finset.range A, ∑ d ∈ Finset.range D, ∑ b ∈ Finset.range B, ∑ c ∈ Finset.range C,
          g (((a * B + b) * C + c) * D + d) := by
  rw [Cert.LibSumBlocks.sum_range_blocks g D (A * B * C),
    Cert.LibSumBlocks.sum_range_blocks (fun x => ∑ d ∈ Finset.range D, g (x * D + d)) C (A * B),
    Cert.LibSumBlocks.sum_range_blocks (fun x => ∑ c ∈ Finset.range C, ∑ d ∈ Finset.range D, g ((x * C + c) * D + d)) B A]
  refine Finset.sum_congr rfl fun a _ => ?_
  calc ∑ b ∈ Finset.range B, ∑ c ∈ Finset.range C, ∑ d ∈ Finset.range D, g (((a * B + b) * C + c) * D + d)
      = ∑ b ∈ Finset.range B, ∑ d ∈ Finset.range D, ∑ c ∈ Finset.range C, g (((a * B + b) * C + c) * D + d) :=
        Finset.sum_congr rfl fun b _ => Finset.sum_comm
    _ = ∑ d ∈ Finset.range D, ∑ b ∈ Finset.range B, ∑ c ∈ Finset.range C, g (((a * B + b) * C + c) * D + d) :=
        Finset.sum_comm

/-- The same over index types: the whole sum over `Fin N` with `N = A·B·C·D`. -/
theorem sum_fin_four {β : Type*} [AddCommMonoid β] (g : ℕ → β) (A B C D N : ℕ) (hN : N = A * B * C * D) :
    ∑ n : Fin N, g n.val
      = ∑ a : Fin A, ∑ d : Fin D, ∑ b : Fin B, ∑ c : Fin C, g (((a.val * B + b.val) * C + c.val) * D + d.val) := by
  subst hN
  rw [← Finset.sum_range g, sum_range_four g A B C D,
    Finset.sum_range (fun a => ∑ d ∈ Finset.range D, ∑ b ∈ Finset.range B, ∑ c ∈ Finset.range C, g (((a * B + b) * C + c) * D + d))]
  refine Finset.sum_congr rfl fun a _ => ?_
  rw [Finset.sum_range (fun d => ∑ b ∈ Finset.range B, ∑ c ∈ Finset.range C, g (((a.val * B + b) * C + c) * D + d))]
  refine Finset.sum_congr rfl fun d _ => ?_
  rw [Finset.sum_range (fun b => ∑ c ∈ Finset.range C, g (((a.val * B + b) * C + c) * D + d.val))]
  refine Finset.sum_congr rfl fun b _ => ?_
  rw [Finset.sum_range (fun c => g (((a.val * B + b.val) * C + c) * D + d.val))]

end Cert.LibRegroup
-- ==== Proof.Spec.lean ====
/-
  The mathematics of the hypergraph convolution, over the extended reals, with arrays seen as functions of natural
  numbers.

  For an incidence matrix H (8192 rows, 4096 columns), features X, a weight matrix W and a bias B:

      dv n      = 1 / sqrt (sum_e H n e + eps)                       (one number per row)
      dei e     = one / (sum_n H n e + eps)                          (one number per column)
      tt e k    = sum_n H n e * (dv n * X n k)
      out n o   = sum_k (dv n * sum_e H n e * (dei e * tt e k)) * W o k  +  B o

  Three facts are proved here, none of which needs the entries to be finite:
    * a negative half power of a positive extended real is its inverse square root;
    * a sum over the 8192 rows is the sum of two runs of eight blocks of 512 rows (the order in which two cores, each
      walking eight row blocks, collect it);
    * the same result with every product written the other way round and the column scale applied after the sum
      over rows.
-/
import Idealize.ShloMosaic.PureOps.Ideal
import Idealize.ShloMosaic.Lib.ValueIdx
import proofs.«112070_j17111149707406_2_alg».proof.Proof.LibRegroup

noncomputable section

namespace Cert.Hyper

open Idealize.ShloMosaic Idealize.ShloMosaic.ValueIdx

/-! ## Arrays as functions of natural numbers -/

/-- A matrix read at a pair of naturals (zero outside its extents). -/
def nat2 {a b : ℕ} (A : (⟨2, ![a, b]⟩ : Shape).Idx → EReal) (i j : ℕ) : EReal :=
  if h : i < a ∧ j < b then A (ix2 ⟨i, h.1⟩ ⟨j, h.2⟩) else 0

theorem nat2_ix2 {a b : ℕ} (A : (⟨2, ![a, b]⟩ : Shape).Idx → EReal) (i : Fin a) (j : Fin b) :
    A (ix2 i j) = nat2 A i.val j.val := by
  unfold nat2; rw [dif_pos ⟨i.isLt, j.isLt⟩]

/-- A vector read at a natural (zero outside its extent). -/
def nat1 {a : ℕ} (A : (⟨1, ![a]⟩ : Shape).Idx → EReal) (i : ℕ) : EReal :=
  if h : i < a then A (ix1 ⟨i, h⟩) else 0

theorem nat1_ix1 {a : ℕ} (A : (⟨1, ![a]⟩ : Shape).Idx → EReal) (i : Fin a) : A (ix1 i) = nat1 A i.val := by
  unfold nat1; rw [dif_pos i.isLt]

/-! ## The literals -/

theorem ofBits_zero : Ideal.ofBits .f32 0x00000000#32 = 0 := by
  simp [Ideal.ofBits, Ideal.ieee]

theorem ofBits_neg_half : Ideal.ofBits .f32 0xBF000000#32 = ((-1 / 2 : ℝ) : EReal) := by
  simp [Ideal.ofBits, Ideal.ieee, -EReal.coe_mul]; norm_num

/-! ## A negative half power of a positive number is its inverse square root -/

theorem pow_neg_half (y : EReal) (hy : 0 < y) : Ideal.pow y ((-1 / 2 : ℝ) : EReal) = Ideal.rsqrt y := by
  induction y using EReal.rec with
  | bot => exact absurd hy (by simp)
  | top =>
    rw [Ideal.pow_top, Ideal.rsqrt_top]
    have h1 : ¬ (0 : EReal) < ((-1 / 2 : ℝ) : EReal) := by
      rw [not_lt]; exact_mod_cast (by norm_num : (-1 / 2 : ℝ) ≤ 0)
    have h2 : ((-1 / 2 : ℝ) : EReal) ≠ 0 := by
      intro h; have : (-1 / 2 : ℝ) = 0 := by exact_mod_cast h
      norm_num at this
    rw [if_neg h1, if_neg h2]
  | coe r =>
    have hr : 0 < r := by exact_mod_cast hy
    rw [Ideal.pow_coe_coe, Ideal.rsqrt_coe, if_neg (not_lt.mpr hr.le), if_neg hr.ne']
    congr 1
    show r ^ (-1 / 2 : ℝ) = (Real.sqrt r)⁻¹
    rw [Real.sqrt_eq_rpow, ← Real.rpow_neg hr.le]; norm_num

/-! ## The rows in two runs of eight blocks of 512 -/

theorem sum_two_runs {M : Type*} [AddCommMonoid M] (g : ℕ → M) :
    ∑ n : Fin 8192, g n.val
      = (∑ s : Fin 8, ∑ r : Fin 512, g ((8 * 0 + s.val) * 512 + r.val))
        + (∑ s : Fin 8, ∑ r : Fin 512, g ((8 * 1 + s.val) * 512 + r.val)) := by
  have h1 : ∑ n : Fin 8192, g n.val = ∑ j ∈ Finset.range 16, ∑ s ∈ Finset.range 512, g (j * 512 + s) :=
    Cert.LibSumBlocks.sum_fin_blocks g 512 16
  have h2 : ∑ j ∈ Finset.range 16, ∑ s ∈ Finset.range 512, g (j * 512 + s)
      = ∑ q ∈ Finset.range 2, ∑ s ∈ Finset.range 8, ∑ r ∈ Finset.range 512, g ((q * 8 + s) * 512 + r) :=
    Cert.LibSumBlocks.sum_range_blocks (fun j => ∑ s ∈ Finset.range 512, g (j * 512 + s)) 8 2
  rw [h1, h2, Finset.sum_range_succ, Finset.sum_range_one]
  refine congrArg₂ (· + ·) ?_ ?_
  · rw [Finset.sum_range]
    refine Finset.sum_congr rfl fun s _ => ?_
    rw [Finset.sum_range]
  · rw [Finset.sum_range]
    refine Finset.sum_congr rfl fun s _ => ?_
    rw [Finset.sum_range]

/-! ## The result -/

section
variable (ε one : EReal) (H X W : ℕ → ℕ → EReal) (B : ℕ → EReal)

/-- The inverse square root of a row's sum plus eps. -/
def dv (n : ℕ) : EReal := Ideal.rsqrt ((∑ e : Fin 4096, H n e.val) + ε)
/-- The inverse of a column's sum plus eps. -/
def dei (e : ℕ) : EReal := Ideal.div one ((∑ n : Fin 8192, H n.val e) + ε)
/-- H transposed times the row-scaled features. -/
def tt (e k : ℕ) : EReal := ∑ n : Fin 8192, H n.val e * (dv ε H n.val * X n.val k)
/-- The convolution followed by the linear layer. -/
def out (n o : ℕ) : EReal :=
  (∑ k : Fin 256, (dv ε H n * ∑ e : Fin 4096, H n e.val * (dei ε one H e.val * tt ε H X e.val k.val)) * W o k.val) + B o

/-- One row block's contribution to `tt`. -/
def ttBlock (t e k : ℕ) : EReal := ∑ r : Fin 512, H (t * 512 + r.val) e * (dv ε H (t * 512 + r.val) * X (t * 512 + r.val) k)
/-- One row block's contribution to a column sum. -/
def colBlock (t e : ℕ) : EReal := ∑ r : Fin 512, H (t * 512 + r.val) e

theorem tt_two_runs (e k : ℕ) :
    tt ε H X e k = (∑ s : Fin 8, ttBlock ε H X (8 * 0 + s.val) e k) + (∑ s : Fin 8, ttBlock ε H X (8 * 1 + s.val) e k) :=
  sum_two_runs (fun n => H n e * (dv ε H n * X n k))

theorem col_two_runs (e : ℕ) :
    (∑ n : Fin 8192, H n.val e) = (∑ s : Fin 8, colBlock H (8 * 0 + s.val) e) + (∑ s : Fin 8, colBlock H (8 * 1 + s.val) e) :=
  sum_two_runs (fun n => H n e)

/-- The arrangement in which the scale of a column is applied after the sum over rows, the scale of a row after the sum
    over columns: the same number, by commutativity of the product alone. -/
theorem out_commuted (n o : ℕ) (T' : ℕ → ℕ → EReal) (d' : ℕ → EReal) (hT : ∀ e k, T' e k = tt ε H X e k)
    (hd : ∀ e, d' e = dei ε one H e) :
    (∑ k : Fin 256, ((∑ e : Fin 4096, H n e.val * (T' e.val k.val * d' e.val)) * dv ε H n) * W o k.val) + B o
      = out ε one H X W B n o := by
  unfold out
  refine congrArg (· + B o) (Finset.sum_congr rfl fun k _ => ?_)
  refine congrArg (· * W o k.val) ?_
  rw [mul_comm]
  refine congrArg (dv ε H n * ·) (Finset.sum_congr rfl fun e _ => ?_)
  rw [hT, hd, mul_comm (tt ε H X e.val k.val)]

end

end Cert.Hyper

end
-- ==== Proof.PointsA.lean ====
/-
  The first launch, point by point, over the extended reals.

  The grid has 16 points; point t works on rows t*512 .. t*512+511 of H and of X (both input windows move one row
  block per point). What the three output buffers hold after point t, as functions of the arrays the launch found
  (H and X as functions of natural numbers):

    column buffer, row r                = dv (t*512 + r)
    T accumulator at (e, k), t = 8q + j  = sum over the run's first j+1 points s of  ttBlock (8q + s) e k
    column-sum accumulator at e         = sum over the run's first j+1 points s of  colBlock (8q + s) e

  The accumulators are reset (to zero plus the point's contribution) where t is a multiple of 8 and add the point's
  contribution to what the point before left elsewhere: so they hold the running sums of their run.
-/
import proofs.«112070_j17111149707406_2_alg».proof.Proof.Pieces
import proofs.«112070_j17111149707406_2_alg».proof.Proof.BodyA
import proofs.«112070_j17111149707406_2_alg».proof.Proof.Spec

set_option maxRecDepth 16384

noncomputable section

open Idealize.ShloMosaic Idealize.ShloMosaic.TcCoe Idealize.ShloMosaic.ValueIdx Idealize.SL.Sem
open Idealize.ShloMosaic.Pipeline (Dat)

namespace Cert.KernelIdeal.PointsA

open Cert.KernelIdeal Cert.KernelIdeal.Gen Cert.Hyper

variable (V : (c : Dev nD) → (b : Ref sig .tc) → Buf (Elt Ideal) ((c : Thread nD τ).loc b))

/-- eps, as both programs spell it. -/
abbrev eps : EReal := Ideal.ofBits .f32 0x358637BD#32

/-- H and X as the launch finds them, as functions of natural numbers. -/
def Hn (c : Dev nD) : ℕ → ℕ → EReal := nat2 (a := 8192) (b := 4096) (V c main_arg1)
def Xn (c : Dev nD) : ℕ → ℕ → EReal := nat2 (a := 8192) (b := 256) (V c main_arg0)

/-- The two input blocks at point `t`, at their literal shapes. -/
def Hb (c : Dev nD) (t : Fin cfg0.N) : FVec Ideal S512x4096 .f32 := iblk0 V c 0 t
def Xb (c : Dev nD) (t : Fin cfg0.N) : FVec Ideal S512x256 .f32 := iblk0 V c 1 t

/-- Both input windows are at row block `t` at point `t`. -/
theorem idxH : ∀ t : Fin cfg0.N, win0_0.index t 0 = t.val ∧ win0_0.index t 1 = 0 :=
  (by decide +kernel : ∀ t : Fin grid0.N, win0_0.index t 0 = t.val ∧ win0_0.index t 1 = 0)
theorem idxX : ∀ t : Fin cfg0.N, win0_1.index t 0 = t.val ∧ win0_1.index t 1 = 0 :=
  (by decide +kernel : ∀ t : Fin grid0.N, win0_1.index t 0 = t.val ∧ win0_1.index t 1 = 0)

theorem rows_lt (t : Fin cfg0.N) (r : Fin 512) : t.val * 512 + r.val < 8192 := by
  have := t.isLt; have h16 : cfg0.N = 16 := N_0; have := r.isLt; omega

/-- The H block at point `t` is rows `t*512 ..` of H. -/
theorem hblk (c : Dev nD) (t : Fin cfg0.N) (r : Fin 512) (e : Fin 4096) :
    Hb V c t (ix2 r e) = Hn V c (t.val * 512 + r.val) e.val := by
  unfold Hn nat2
  rw [dif_pos ⟨rows_lt t r, e.isLt⟩]
  unfold Hb iblk0
  rw [View.read_apply]
  show V c main_arg1 _ = V c main_arg1 _
  refine congrArg (V c main_arg1) (funext fun a => Fin.ext ?_)
  match a with
  | ⟨0, _⟩ => show win0_0.index t 0 * 512 + 1 * r.val = t.val * 512 + r.val; rw [(idxH t).1]; omega
  | ⟨1, _⟩ => show win0_0.index t 1 * 4096 + 1 * e.val = e.val; rw [(idxH t).2]; omega

/-- The X block at point `t` is rows `t*512 ..` of X. -/
theorem xblk (c : Dev nD) (t : Fin cfg0.N) (r : Fin 512) (k : Fin 256) :
    Xb V c t (ix2 r k) = Xn V c (t.val * 512 + r.val) k.val := by
  unfold Xn nat2
  rw [dif_pos ⟨rows_lt t r, k.isLt⟩]
  unfold Xb iblk0
  rw [View.read_apply]
  show V c main_arg0 _ = V c main_arg0 _
  refine congrArg (V c main_arg0) (funext fun a => Fin.ext ?_)
  match a with
  | ⟨0, _⟩ => show win0_1.index t 0 * 512 + 1 * r.val = t.val * 512 + r.val; rw [(idxX t).1]; omega
  | ⟨1, _⟩ => show win0_1.index t 1 * 256 + 1 * k.val = k.val; rw [(idxX t).2]; omega

/-! ## One point's contributions, from the arrays -/

/-- The inverse-square-root column of the block at point `t`. -/
theorem col_pt (c : Dev nD) (t : Fin cfg0.N) (r : Fin 512) (u : Fin 1) :
    k0_pay3 (F := Ideal) (iblk0 V c 0 t) (ix2 r u) = dv eps (Hn V c) (t.val * 512 + r.val) := by
  refine (BodyA.col_apply (iblk0 V c 0 t) r u).trans ?_
  unfold dv
  exact congrArg (fun z => Ideal.rsqrt (z + eps)) (Finset.sum_congr rfl fun e _ => hblk V c t r e)

/-- The block's product at `(e, k)`. -/
theorem tt_pt (c : Dev nD) (t : Fin cfg0.N) (e : Fin 4096) (k : Fin 256) :
    (∑ r : Fin 512, Hb V c t (ix2 r e)
        * (k0_pay3 (F := Ideal) (iblk0 V c 0 t) (ix2 r (0 : Fin 1)) * Xb V c t (ix2 r k)))
      = ttBlock eps (Hn V c) (Xn V c) t.val e.val k.val := by
  unfold ttBlock
  exact Finset.sum_congr rfl fun r _ =>
    congrArg₂ (· * ·) (hblk V c t r e) (congrArg₂ (· * ·) (col_pt V c t r 0) (xblk V c t r k))

/-- The block's column sum at `e`. -/
theorem col_sum_pt (c : Dev nD) (t : Fin cfg0.N) (e : Fin 4096) :
    (∑ r : Fin 512, Hb V c t (ix2 r e)) = colBlock (Hn V c) t.val e.val := by
  unfold colBlock
  exact Finset.sum_congr rfl fun r _ => hblk V c t r e

/-! ## What the buffers hold after a point -/

/-- The column buffer after point `t`. -/
theorem col_after (c : Dev nD) (t : Fin cfg0.N) (r : Fin 512) (u : Fin 1) :
    (outsAt0 V c t.val t.isLt).1 (ix2 r u) = dv eps (Hn V c) (t.val * 512 + r.val) := by
  by_cases h0 : t.val % 8 = 0
  · rw [outsAt0_A V c t h0]
    dsimp only
    rw [Pieces.col_A (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)]
    exact col_pt V c t r u
  · rw [outsAt0_B V c t h0]
    dsimp only
    rw [Pieces.col_B (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2]
    exact col_pt V c t r u

/-- At the first point of a run the T accumulator is that point's product. -/
theorem tacc_reset (c : Dev nD) (t : Fin cfg0.N) (h0 : t.val % 8 = 0) (e : Fin 4096) (k : Fin 256) :
    (outsAt0 V c t.val t.isLt).2.1 (ix3 (0 : Fin 1) e k) = ttBlock eps (Hn V c) (Xn V c) t.val e.val k.val := by
  rw [outsAt0_A V c t h0]
  dsimp only
  rw [Pieces.tacc_A (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)]
  refine (BodyA.tacc_apply (iblk0 V c 0 t) (iblk0 V c 1 t) (k0_pay1 (F := Ideal)) 0 e k).trans ?_
  rw [BodyA.zeroT_apply, ofBits_zero, zero_add]
  exact tt_pt V c t e k

/-- At any other point it is what the point before left plus that point's product. -/
theorem tacc_step (c : Dev nD) (t : Fin cfg0.N) (h0 : ¬t.val % 8 = 0) (e : Fin 4096) (k : Fin 256) :
    (outsAt0 V c t.val t.isLt).2.1 (ix3 (0 : Fin 1) e k)
      = (outsAt0 V c (t.val - 1) (Nat.lt_of_le_of_lt (Nat.sub_le _ _) t.isLt)).2.1 (ix3 (0 : Fin 1) e k) + ttBlock eps (Hn V c) (Xn V c) t.val e.val k.val := by
  rw [outsAt0_B V c t h0]
  dsimp only
  rw [Pieces.tacc_B (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2]
  exact (BodyA.tacc_apply (iblk0 V c 0 t) (iblk0 V c 1 t) (outsAt0 V c (t.val - 1) (Nat.lt_of_le_of_lt (Nat.sub_le _ _) t.isLt)).2.1 0 e k).trans (congrArg (_ + ·) (tt_pt V c t e k))

/-- At the first point of a run the column-sum accumulator is that point's column sums. -/
theorem dacc_reset (c : Dev nD) (t : Fin cfg0.N) (h0 : t.val % 8 = 0) (e : Fin 4096) :
    (outsAt0 V c t.val t.isLt).2.2 (ix3 (0 : Fin 1) (0 : Fin 1) e) = colBlock (Hn V c) t.val e.val := by
  rw [outsAt0_A V c t h0]
  dsimp only
  rw [Pieces.dacc_A (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)]
  refine (BodyA.dacc_apply (iblk0 V c 0 t) (k0_pay2 (F := Ideal)) 0 0 e).trans ?_
  rw [BodyA.zeroD_apply, ofBits_zero, zero_add]
  exact col_sum_pt V c t e

/-- At any other point it is what the point before left plus that point's column sums. -/
theorem dacc_step (c : Dev nD) (t : Fin cfg0.N) (h0 : ¬t.val % 8 = 0) (e : Fin 4096) :
    (outsAt0 V c t.val t.isLt).2.2 (ix3 (0 : Fin 1) (0 : Fin 1) e)
      = (outsAt0 V c (t.val - 1) (Nat.lt_of_le_of_lt (Nat.sub_le _ _) t.isLt)).2.2 (ix3 (0 : Fin 1) (0 : Fin 1) e) + colBlock (Hn V c) t.val e.val := by
  rw [outsAt0_B V c t h0]
  dsimp only
  rw [Pieces.dacc_B (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2]
  exact (BodyA.dacc_apply (iblk0 V c 0 t) (outsAt0 V c (t.val - 1) (Nat.lt_of_le_of_lt (Nat.sub_le _ _) t.isLt)).2.2 0 0 e).trans (congrArg (_ + ·) (col_sum_pt V c t e))

/-! ## The running sums -/

/-- `j` points into run `q` the T accumulator holds the sum of the run's first `j + 1` products. -/
theorem tacc_run (c : Dev nD) (q j : ℕ) (hj : j < 8) (h : 8 * q + j < cfg0.N) (e : Fin 4096) (k : Fin 256) :
    (outsAt0 V c (8 * q + j) h).2.1 (ix3 (0 : Fin 1) e k)
      = ∑ s : Fin (j + 1), ttBlock eps (Hn V c) (Xn V c) (8 * q + s.val) e.val k.val :=
  Cert.LibRegroup.run_sum (ι := Fin 4096 × Fin 256) 8
    (fun n hn i => (outsAt0 V c n hn).2.1 (ix3 (0 : Fin 1) i.1 i.2))
    (fun n _ i => ttBlock eps (Hn V c) (Xn V c) n i.1.val i.2.val)
    (fun n hn i h0 => tacc_reset V c ⟨n, hn⟩ h0 i.1 i.2)
    (fun n hn i h0 => tacc_step V c ⟨n + 1, hn⟩ h0 i.1 i.2)
    q (e, k) j hj h

/-- `j` points into run `q` the column-sum accumulator holds the sum of the run's first `j + 1` column sums. -/
theorem dacc_run (c : Dev nD) (q j : ℕ) (hj : j < 8) (h : 8 * q + j < cfg0.N) (e : Fin 4096) :
    (outsAt0 V c (8 * q + j) h).2.2 (ix3 (0 : Fin 1) (0 : Fin 1) e)
      = ∑ s : Fin (j + 1), colBlock (Hn V c) (8 * q + s.val) e.val :=
  Cert.LibRegroup.run_sum (ι := Fin 4096) 8
    (fun n hn i => (outsAt0 V c n hn).2.2 (ix3 (0 : Fin 1) (0 : Fin 1) i))
    (fun n _ i => colBlock (Hn V c) n i.val)
    (fun n hn i h0 => dacc_reset V c ⟨n, hn⟩ h0 i)
    (fun n hn i h0 => dacc_step V c ⟨n + 1, hn⟩ h0 i)
    q e j hj h

end Cert.KernelIdeal.PointsA

end
-- ==== Proof.ArraysA.lean ====
/-
  What the first launch leaves in its three result arrays, as functions of H and X.

    column array  [8192, 1]      at (n, 0)      = dv n
    T partials    [2, 4096, 256] at (q, e, k)   = sum over the eight points s of run q of  ttBlock (8q + s) e k
    column sums   [2, 1, 4096]   at (q, 0, e)   = sum over the eight points s of run q of  colBlock (8q + s) e

  The column array's block t (rows t*512 ..) is written back at every point. An accumulator's block q is written
  back once, at the last point 8q + 7 of its run, when it holds the run's whole sum. In each case the blocks that are
  written back cover the array.
-/
import proofs.«112070_j17111149707406_2_alg».proof.Proof.PointsA

set_option maxRecDepth 16384

noncomputable section

open Idealize.ShloMosaic Idealize.ShloMosaic.TcCoe Idealize.ShloMosaic.ValueIdx Idealize.SL.Sem
open Idealize.ShloMosaic.Pipeline (Dat)

namespace Cert.KernelIdeal.ArraysA

open Cert.KernelIdeal Cert.KernelIdeal.Gen Cert.Hyper Cert.KernelIdeal.PointsA

variable (V : (c : Dev nD) → (b : Ref sig .tc) → Buf (Elt Ideal) ((c : Thread nD τ).loc b))

/-- Where each output window's block sits at point `t`. -/
theorem idxC : ∀ t : Fin cfg0.N, win0_2.index t 0 = t.val ∧ win0_2.index t 1 = 0 :=
  (by decide +kernel : ∀ t : Fin grid0.N, win0_2.index t 0 = t.val ∧ win0_2.index t 1 = 0)
theorem idxT : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)
theorem idxD : ∀ t : Fin cfg0.N, win0_4.index t 0 = t.val / 8 ∧ win0_4.index t 1 = 0 ∧ win0_4.index t 2 = 0 :=
  (by decide +kernel : ∀ t : Fin grid0.N, win0_4.index t 0 = t.val / 8 ∧ win0_4.index t 1 = 0 ∧ win0_4.index t 2 = 0)

/-- The three arrays. -/
def colArr (c : Dev nD) : S8192x1.Idx → EReal := fun i => dv eps (Hn V c) (i 0).val
def tArr (c : Dev nD) : S2x4096x256.Idx → EReal := fun i =>
  ∑ s : Fin 8, ttBlock eps (Hn V c) (Xn V c) (8 * (i 0).val + s.val) (i 1).val (i 2).val
def dArr (c : Dev nD) : S2x1x4096.Idx → EReal := fun i =>
  ∑ s : Fin 8, colBlock (Hn V c) (8 * (i 0).val + s.val) (i 2).val

/-- At the last point `8q + 7` of run `q` the accumulators hold the run's whole sums. -/
theorem tacc_last (c : Dev nD) (n : ℕ) (hn : n < cfg0.N) (q : ℕ) (hq : n = 8 * q + 7) (e : Fin 4096) (k : Fin 256) :
    (outsAt0 V c n hn).2.1 (ix3 (0 : Fin 1) e k)
      = ∑ s : Fin 8, ttBlock eps (Hn V c) (Xn V c) (8 * q + s.val) e.val k.val := by
  subst hq
  exact tacc_run V c q 7 (by omega) hn e k
theorem dacc_last (c : Dev nD) (n : ℕ) (hn : n < cfg0.N) (q : ℕ) (hq : n = 8 * q + 7) (e : Fin 4096) :
    (outsAt0 V c n hn).2.2 (ix3 (0 : Fin 1) (0 : Fin 1) e) = ∑ s : Fin 8, colBlock (Hn V c) (8 * q + s.val) e.val := by
  subst hq
  exact dacc_run V c q 7 (by omega) hn e

/-! ## The column array -/

theorem col_flushed (c : Dev nD) (t : Fin cfg0.N) :
    (dat0 V c).flushed 2 t = ((cfg0.win 2).blk t).view.read (Elt Ideal) (colArr V c) := by
  show (cfg0.win 2).cut (grid0.coords t) ((dat0 V c).after 2 t) = _
  rw [after0_2]
  funext j
  obtain ⟨r, u, rfl⟩ : ∃ (r : Fin 512) (u : Fin 1), j = ix2 r u := ⟨j 0, j 1, eq_ix2 j⟩
  show (outsAt0 V c t.val t.isLt).1 (ix2 r u) = colArr V c (((cfg0.win 2).blk t).view.emb (ix2 r u))
  rw [col_after V c t r u]
  unfold colArr
  refine congrArg (dv eps (Hn V c)) ?_
  show t.val * 512 + r.val = win0_2.index t 0 * 512 + 1 * r.val
  rw [(idxC t).1]; omega

theorem col_mem (t : Fin cfg0.N) (i : S8192x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v0_0).slice (win0_2.rect t)).set ↔ _
  rw [View.set_slice_whole, Rect.mem_set_unit]
  exact Iff.rfl

/-- The column array after the launch. -/
theorem col_final (c : Dev nD) : (dat0 V c).arrAt 2 cfg0.N = colArr V c :=
  (dat0 V c).arrAt_eq_of_cover 2 (colArr V c) (fun t _ => col_flushed V c t) fun i => by
    have hi0 : (i 0).val < 8192 := (i 0).isLt
    have hi1 : (i 1).val < 1 := (i 1).isLt
    have hN : cfg0.N = 16 := N_0
    have hT : (i 0).val / 512 < cfg0.N := by omega
    have e0 : win0_2.index ⟨(i 0).val / 512, hT⟩ 0 = (i 0).val / 512 := (idxC ⟨(i 0).val / 512, hT⟩).1
    have e1 : win0_2.index ⟨(i 0).val / 512, hT⟩ 1 = 0 := (idxC ⟨(i 0).val / 512, hT⟩).2
    refine ⟨⟨(i 0).val / 512, hT⟩, flush0_2 _, ?_⟩
    rw [col_mem]
    intro a
    match a with
    | ⟨0, _⟩ =>
      show win0_2.index ⟨(i 0).val / 512, hT⟩ 0 * 512 ≤ (i 0).val ∧ (i 0).val < win0_2.index ⟨(i 0).val / 512, hT⟩ 0 * 512 + 512
      rw [e0]; omega
    | ⟨1, _⟩ =>
      show win0_2.index ⟨(i 0).val / 512, hT⟩ 1 * 1 ≤ (i 1).val ∧ (i 1).val < win0_2.index ⟨(i 0).val / 512, hT⟩ 1 * 1 + 1
      rw [e1]; omega

/-! ## The T partials -/

theorem t_flushed (c : Dev nD) (t : Fin cfg0.N) (hf : (cfg0.win 3).flush t = true) :
    (dat0 V c).flushed 3 t = ((cfg0.win 3).blk t).view.read (Elt Ideal) (tArr V c) := by
  have h7 : t.val % 8 = 7 := (flush0_3 t).mp hf
  show (cfg0.win 3).cut (grid0.coords t) ((dat0 V c).after 3 t) = _
  rw [after0_3]
  funext j
  obtain ⟨a, e, k, rfl⟩ : ∃ (a : Fin 1) (e : Fin 4096) (k : Fin 256), j = ix3 a e k := ⟨j 0, j 1, j 2, eq_ix3 j⟩
  obtain rfl : a = 0 := Fin.ext (by omega)
  show (outsAt0 V c t.val t.isLt).2.1 (ix3 (0 : Fin 1) e k) = tArr V c (((cfg0.win 3).blk t).view.emb (ix3 (0 : Fin 1) e k))
  rw [tacc_last V c t.val t.isLt (t.val / 8) (by omega) e k]
  unfold tArr
  have e0 : ((((cfg0.win 3).blk t).view.emb (ix3 (0 : Fin 1) e k)) 0).val = t.val / 8 := by
    show win0_3.index t 0 * 1 + 1 * 0 = t.val / 8
    rw [(idxT t).1]; omega
  have e1 : ((((cfg0.win 3).blk t).view.emb (ix3 (0 : Fin 1) e k)) 1).val = e.val := by
    show win0_3.index t 1 * 4096 + 1 * e.val = e.val
    rw [(idxT t).2.1]; omega
  have e2 : ((((cfg0.win 3).blk t).view.emb (ix3 (0 : Fin 1) e k)) 2).val = k.val := by
    show win0_3.index t 2 * 256 + 1 * k.val = k.val
    rw [(idxT t).2.2]; omega
  rw [e0, e1, e2]

theorem t_mem (t : Fin cfg0.N) (i : S2x4096x256.Idx) :
    i ∈ ((cfg0.win 3).blk t).view.set ↔ ∀ a : Fin 3, win0_3.index t a * S1x4096x256.size a ≤ (i a).val ∧ (i a).val < win0_3.index t a * S1x4096x256.size a + S1x4096x256.size a := by
  show i ∈ ((View.whole main_v0_1).slice (win0_3.rect t)).set ↔ _
  rw [View.set_slice_whole, Rect.mem_set_unit]
  exact Iff.rfl

/-- The T partials after the launch. -/
theorem t_final (c : Dev nD) : (dat0 V c).arrAt 3 cfg0.N = tArr V c :=
  (dat0 V c).arrAt_eq_of_cover 3 (tArr V c) (fun t hf => t_flushed V c t hf) fun i => by
    have hi0 : (i 0).val < 2 := (i 0).isLt
    have hi1 : (i 1).val < 4096 := (i 1).isLt
    have hi2 : (i 2).val < 256 := (i 2).isLt
    have hN : cfg0.N = 16 := N_0
    have hT : 8 * (i 0).val + 7 < cfg0.N := by omega
    have e0 : win0_3.index ⟨8 * (i 0).val + 7, hT⟩ 0 = (8 * (i 0).val + 7) / 8 := (idxT ⟨8 * (i 0).val + 7, hT⟩).1
    have e1 : win0_3.index ⟨8 * (i 0).val + 7, hT⟩ 1 = 0 := (idxT ⟨8 * (i 0).val + 7, hT⟩).2.1
    have e2 : win0_3.index ⟨8 * (i 0).val + 7, hT⟩ 2 = 0 := (idxT ⟨8 * (i 0).val + 7, hT⟩).2.2
    refine ⟨⟨8 * (i 0).val + 7, hT⟩, (flush0_3 _).mpr (by show (8 * (i 0).val + 7) % 8 = 7; omega), ?_⟩
    rw [t_mem]
    intro a
    match a with
    | ⟨0, _⟩ =>
      show win0_3.index ⟨8 * (i 0).val + 7, hT⟩ 0 * 1 ≤ (i 0).val ∧ (i 0).val < win0_3.index ⟨8 * (i 0).val + 7, hT⟩ 0 * 1 + 1
      rw [e0]; omega
    | ⟨1, _⟩ =>
      show win0_3.index ⟨8 * (i 0).val + 7, hT⟩ 1 * 4096 ≤ (i 1).val ∧ (i 1).val < win0_3.index ⟨8 * (i 0).val + 7, hT⟩ 1 * 4096 + 4096
      rw [e1]; omega
    | ⟨2, _⟩ =>
      show win0_3.index ⟨8 * (i 0).val + 7, hT⟩ 2 * 256 ≤ (i 2).val ∧ (i 2).val < win0_3.index ⟨8 * (i 0).val + 7, hT⟩ 2 * 256 + 256
      rw [e2]; omega

/-! ## The column sums -/

theorem d_flushed (c : Dev nD) (t : Fin cfg0.N) (hf : (cfg0.win 4).flush t = true) :
    (dat0 V c).flushed 4 t = ((cfg0.win 4).blk t).view.read (Elt Ideal) (dArr V c) := by
  have h7 : t.val % 8 = 7 := (flush0_4 t).mp hf
  show (cfg0.win 4).cut (grid0.coords t) ((dat0 V c).after 4 t) = _
  rw [after0_4]
  funext j
  obtain ⟨a, b, e, rfl⟩ : ∃ (a : Fin 1) (b : Fin 1) (e : Fin 4096), j = ix3 a b e := ⟨j 0, j 1, j 2, eq_ix3 j⟩
  obtain rfl : a = 0 := Fin.ext (by omega)
  obtain rfl : b = 0 := Fin.ext (by omega)
  show (outsAt0 V c t.val t.isLt).2.2 (ix3 (0 : Fin 1) (0 : Fin 1) e) = dArr V c (((cfg0.win 4).blk t).view.emb (ix3 (0 : Fin 1) (0 : Fin 1) e))
  rw [dacc_last V c t.val t.isLt (t.val / 8) (by omega) e]
  unfold dArr
  have e0 : ((((cfg0.win 4).blk t).view.emb (ix3 (0 : Fin 1) (0 : Fin 1) e)) 0).val = t.val / 8 := by
    show win0_4.index t 0 * 1 + 1 * 0 = t.val / 8
    rw [(idxD t).1]; omega
  have e2 : ((((cfg0.win 4).blk t).view.emb (ix3 (0 : Fin 1) (0 : Fin 1) e)) 2).val = e.val := by
    show win0_4.index t 2 * 4096 + 1 * e.val = e.val
    rw [(idxD t).2.2]; omega
  rw [e0, e2]

theorem d_mem (t : Fin cfg0.N) (i : S2x1x4096.Idx) :
    i ∈ ((cfg0.win 4).blk t).view.set ↔ ∀ a : Fin 3, win0_4.index t a * S1x1x4096.size a ≤ (i a).val ∧ (i a).val < win0_4.index t a * S1x1x4096.size a + S1x1x4096.size a := by
  show i ∈ ((View.whole main_v0_2).slice (win0_4.rect t)).set ↔ _
  rw [View.set_slice_whole, Rect.mem_set_unit]
  exact Iff.rfl

/-- The column sums after the launch. -/
theorem d_final (c : Dev nD) : (dat0 V c).arrAt 4 cfg0.N = dArr V c :=
  (dat0 V c).arrAt_eq_of_cover 4 (dArr V c) (fun t hf => d_flushed V c t hf) fun i => by
    have hi0 : (i 0).val < 2 := (i 0).isLt
    have hi1 : (i 1).val < 1 := (i 1).isLt
    have hi2 : (i 2).val < 4096 := (i 2).isLt
    have hN : cfg0.N = 16 := N_0
    have hT : 8 * (i 0).val + 7 < cfg0.N := by omega
    have e0 : win0_4.index ⟨8 * (i 0).val + 7, hT⟩ 0 = (8 * (i 0).val + 7) / 8 := (idxD ⟨8 * (i 0).val + 7, hT⟩).1
    have e1 : win0_4.index ⟨8 * (i 0).val + 7, hT⟩ 1 = 0 := (idxD ⟨8 * (i 0).val + 7, hT⟩).2.1
    have e2 : win0_4.index ⟨8 * (i 0).val + 7, hT⟩ 2 = 0 := (idxD ⟨8 * (i 0).val + 7, hT⟩).2.2
    refine ⟨⟨8 * (i 0).val + 7, hT⟩, (flush0_4 _).mpr (by show (8 * (i 0).val + 7) % 8 = 7; omega), ?_⟩
    rw [d_mem]
    intro a
    match a with
    | ⟨0, _⟩ =>
      show win0_4.index ⟨8 * (i 0).val + 7, hT⟩ 0 * 1 ≤ (i 0).val ∧ (i 0).val < win0_4.index ⟨8 * (i 0).val + 7, hT⟩ 0 * 1 + 1
      rw [e0]; omega
    | ⟨1, _⟩ =>
      show win0_4.index ⟨8 * (i 0).val + 7, hT⟩ 1 * 1 ≤ (i 1).val ∧ (i 1).val < win0_4.index ⟨8 * (i 0).val + 7, hT⟩ 1 * 1 + 1
      rw [e1]; omega
    | ⟨2, _⟩ =>
      show win0_4.index ⟨8 * (i 0).val + 7, hT⟩ 2 * 4096 ≤ (i 2).val ∧ (i 2).val < win0_4.index ⟨8 * (i 0).val + 7, hT⟩ 2 * 4096 + 4096
      rw [e2]; omega

end Cert.KernelIdeal.ArraysA

end
-- ==== Proof.BodyB.lean ====
/-
  The second kernel's arithmetic at one entry, over the extended reals.

  With a row block Hb (512 x 4096) of the incidence matrix, the scaled T matrix Tb (4096 x 256), the matching block
  of the inverse-square-root column, the weight matrix Wb (256 x 256) and the bias as a row:

    out r o = sum_c ((sum_e Hb r e * Tb e c) * column r) * Wb o c  +  bias o

  (changes of float format are the identity; both matrix products run into zero accumulators, so they are plain sums;
  the second contracts the second axis of both operands).
-/
import proofs.«112070_j17111149707406_2_alg».proof.Proof.Gen.KernelIdeal.Skeleton
import proofs.«112070_j17111149707406_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.KernelIdeal.BodyB

open Cert.KernelIdeal Cert.KernelIdeal.Gen

/-! ### The first product: rows of the H block times the scaled T matrix -/

theorem p_lhs0 (i : S512x256.Idx) (q : dot_S512x4096_S4096x256_S512x256_1_0_0_1_n_n.contr.Idx) : (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
theorem p_lhs1 (i : S512x256.Idx) (q : dot_S512x4096_S4096x256_S512x256_1_0_0_1_n_n.contr.Idx) : (dot_S512x4096_S4096x256_S512x256_1_0_0_1_n_n.lhsIdx i q 1).val = (q ⟨0, by decide⟩).val :=
  dot_S512x4096_S4096x256_S512x256_1_0_0_1_n_n.lhsIdx_val_of_single rfl i q
theorem p_rhs0 (i : S512x256.Idx) (q : dot_S512x4096_S4096x256_S512x256_1_0_0_1_n_n.contr.Idx) : (dot_S512x4096_S4096x256_S512x256_1_0_0_1_n_n.rhsIdx i q 0).val = (q ⟨0, by decide⟩).val :=
  dot_S512x4096_S4096x256_S512x256_1_0_0_1_n_n.rhsIdx_val_of_single rfl i q
theorem p_rhs1 (i : S512x256.Idx) (q : dot_S512x4096_S4096x256_S512x256_1_0_0_1_n_n.contr.Idx) : (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

theorem plain_apply (l : FVec Ideal S512x4096 .bf16) (rr : FVec Ideal S4096x256 .bf16) (r : Fin 512) (c : Fin 256) :
    matmul dot_S512x4096_S4096x256_S512x256_1_0_0_1_n_n none l rr (constant (F := Ideal) S512x256 .f32 0x00000000#32) (ix2 r c)
      = ∑ e : Fin 4096, l (ix2 r e) * rr (ix2 e c) := by
  refine (Ideal.matmul_constant_zero_apply dot_S512x4096_S4096x256_S512x256_1_0_0_1_n_n none l rr (ix2 r c)).trans ?_
  rw [← Equiv.sum_comp (ValueIdx.contrEquiv1 dot_S512x4096_S4096x256_S512x256_1_0_0_1_n_n 4096 rfl rfl).symm]
  refine Finset.sum_congr rfl fun e _ => ?_
  have hk := ValueIdx.contrEquiv1_symm_val dot_S512x4096_S4096x256_S512x256_1_0_0_1_n_n 4096 rfl rfl e
  have el : dot_S512x4096_S4096x256_S512x256_1_0_0_1_n_n.lhsIdx (ix2 r c) ((ValueIdx.contrEquiv1 dot_S512x4096_S4096x256_S512x256_1_0_0_1_n_n 4096 rfl rfl).symm e) = ix2 r e := funext fun a => Fin.ext (by
    match a with
    | ⟨0, _⟩ => exact p_lhs0 _ _
    | ⟨1, _⟩ => exact (p_lhs1 _ _).trans hk)
  have er : dot_S512x4096_S4096x256_S512x256_1_0_0_1_n_n.rhsIdx (ix2 r c) ((ValueIdx.contrEquiv1 dot_S512x4096_S4096x256_S512x256_1_0_0_1_n_n 4096 rfl rfl).symm e) = ix2 e c := funext fun a => Fin.ext (by
    match a with
    | ⟨0, _⟩ => exact (p_rhs0 _ _).trans hk
    | ⟨1, _⟩ => exact p_rhs1 _ _)
  rw [el, er]

/-! ### The linear layer: contracting the second axis of both operands -/

theorem l_lhs0 (i : S512x256.Idx) (q : dot_S512x256_S256x256_S512x256_1_1_0_0_n_n.contr.Idx) : (dot_S512x256_S256x256_S512x256_1_1_0_0_n_n.lhsIdx i q 0).val = (i 0).val := by
  unfold DotDims.lhsIdx
  rw [dif_neg (show ¬(0 : Fin S512x256.rank) ∈ dot_S512x256_S256x256_S512x256_1_1_0_0_n_n.lhsBatch by decide), dif_pos (show (0 : Fin S512x256.rank) ∈ dot_S512x256_S256x256_S512x256_1_1_0_0_n_n.lhsNonContracting by decide)]
  rfl
theorem l_lhs1 (i : S512x256.Idx) (q : dot_S512x256_S256x256_S512x256_1_1_0_0_n_n.contr.Idx) : (dot_S512x256_S256x256_S512x256_1_1_0_0_n_n.lhsIdx i q 1).val = (q ⟨0, by decide⟩).val :=
  dot_S512x256_S256x256_S512x256_1_1_0_0_n_n.lhsIdx_val_of_single rfl i q
theorem l_rhs0 (i : S512x256.Idx) (q : dot_S512x256_S256x256_S512x256_1_1_0_0_n_n.contr.Idx) : (dot_S512x256_S256x256_S512x256_1_1_0_0_n_n.rhsIdx i q 0).val = (i 1).val := by
  unfold DotDims.rhsIdx
  rw [dif_neg (show ¬(0 : Fin S256x256.rank) ∈ dot_S512x256_S256x256_S512x256_1_1_0_0_n_n.rhsBatch by decide), dif_pos (show (0 : Fin S256x256.rank) ∈ dot_S512x256_S256x256_S512x256_1_1_0_0_n_n.rhsNonContracting by decide)]
  rfl
theorem l_rhs1 (i : S512x256.Idx) (q : dot_S512x256_S256x256_S512x256_1_1_0_0_n_n.contr.Idx) : (dot_S512x256_S256x256_S512x256_1_1_0_0_n_n.rhsIdx i q 1).val = (q ⟨0, by decide⟩).val :=
  dot_S512x256_S256x256_S512x256_1_1_0_0_n_n.rhsIdx_val_of_single rfl i q

theorem linear_apply (l : FVec Ideal S512x256 .bf16) (rr : FVec Ideal S256x256 .bf16) (r : Fin 512) (o : Fin 256) :
    matmul dot_S512x256_S256x256_S512x256_1_1_0_0_n_n none l rr (constant (F := Ideal) S512x256 .f32 0x00000000#32) (ix2 r o)
      = ∑ c : Fin 256, l (ix2 r c) * rr (ix2 o c) := by
  refine (Ideal.matmul_constant_zero_apply dot_S512x256_S256x256_S512x256_1_1_0_0_n_n none l rr (ix2 r o)).trans ?_
  rw [← Equiv.sum_comp (ValueIdx.contrEquiv1 dot_S512x256_S256x256_S512x256_1_1_0_0_n_n 256 rfl rfl).symm]
  refine Finset.sum_congr rfl fun c _ => ?_
  have hk := ValueIdx.contrEquiv1_symm_val dot_S512x256_S256x256_S512x256_1_1_0_0_n_n 256 rfl rfl c
  have el : dot_S512x256_S256x256_S512x256_1_1_0_0_n_n.lhsIdx (ix2 r o) ((ValueIdx.contrEquiv1 dot_S512x256_S256x256_S512x256_1_1_0_0_n_n 256 rfl rfl).symm c) = ix2 r c := funext fun a => Fin.ext (by
    match a with
    | ⟨0, _⟩ => exact l_lhs0 _ _
    | ⟨1, _⟩ => exact (l_lhs1 _ _).trans hk)
  have er : dot_S512x256_S256x256_S512x256_1_1_0_0_n_n.rhsIdx (ix2 r o) ((ValueIdx.contrEquiv1 dot_S512x256_S256x256_S512x256_1_1_0_0_n_n 256 rfl rfl).symm c) = ix2 o c := funext fun a => Fin.ext (by
    match a with
    | ⟨0, _⟩ => exact l_rhs0 _ _
    | ⟨1, _⟩ => exact (l_rhs1 _ _).trans hk)
  rw [el, er]

/-- A product narrowed to the shorter float format, at an index: the product of the entries (narrowing is the identity). -/
theorem narrowed_mul_apply {s : Shape} (A B : FVec Ideal s .f32) (h : (FTy.bf16).bits < (FTy.f32).bits) (i : s.Idx) :
    ((truncf .bf16 (mulf A B) h : FVec Ideal s .bf16) i : EReal) = (A i : EReal) * (B i : EReal) := rfl

/-- The output block at `(r, o)`. -/
theorem out_apply (v0 : FVec Ideal S512x4096 .f32) (v2 : FVec Ideal S4096x256 .bf16) (v5 : FVec Ideal S512x1 .f32)
    (v9 : FVec Ideal S256x256 .bf16) (v13 : FVec Ideal S1x256 .f32) (r : Fin 512) (o : Fin 256) :
    k1_pay1 (F := Ideal) v0 v2 v5 v9 v13 (ix2 r o)
      = (∑ c : Fin 256, ((∑ e : Fin 4096, v0 (ix2 r e) * v2 (ix2 e c)) * v5 (ix2 r (0 : Fin 1))) * v9 (ix2 o c))
        + v13 (ix2 (0 : Fin 1) o) := by
  unfold k1_pay1
  refine (addf_apply _ _ _).trans (congrArg₂ (· + ·) ?_ ?_)
  · refine (linear_apply _ _ r o).trans (Finset.sum_congr rfl fun c _ => ?_)
    refine congrArg₂ (· * ·) ((narrowed_mul_apply _ _ _ (ix2 r c)).trans (congrArg₂ (· * ·) ?_ ?_)) ?_
    · exact (plain_apply _ _ r c).trans (Finset.sum_congr rfl fun e _ =>
        congrArg (v0 (ix2 r e) * ·) (congrFun (shapeCast_self v2 _) (ix2 e c)))
    · exact (Cert.Keepdims.broadcastTo_a1_ab_apply _ _ r c).trans (congrFun (shapeCast_self v5 _) (ix2 r (0 : Fin 1)))
    · exact congrFun (shapeCast_self v9 _) (ix2 o c)
  · exact (broadcastTo_1b_ab_apply _ _ r o).trans (congrFun (shapeCast_self v13 _) (ix2 (0 : Fin 1) o))

end Cert.KernelIdeal.BodyB

end
-- ==== Proof.Between.lean ====
/-
  The host operations between the two launches.

  From the first launch's results (the T partials P [2, 4096, 256] and the column-sum partials D [2, 1, 4096]) the
  host builds the scaled matrix

      scaledT e k = (P 0 e k + P 1 e k) * (1 / ((D 0 0 e + D 1 0 e) + eps)),

  narrows it and W to the shorter float format (the identity over the extended reals), and lays the bias out as a
  row. The second launch is entered with these, with H as launched and with the column array the first launch
  left; no host operation writes H or the column array.
-/
import proofs.«112070_j17111149707406_2_alg».proof.Proof.ArraysA
import proofs.«112070_j17111149707406_2_alg».proof.Proof.BodyB
import Idealize.ShloMosaic.Lib.StableHlo.Run

set_option maxRecDepth 16384

noncomputable section

open Idealize.ShloMosaic Idealize.ShloMosaic.TcCoe Idealize.ShloMosaic.ValueIdx Idealize.SL.Sem
open Idealize.ShloMosaic.StableHlo
open Idealize.ShloMosaic.Pipeline (Dat)

namespace Cert.KernelIdeal.Between

open Cert.KernelIdeal Cert.KernelIdeal.Gen Cert.Hyper

abbrev eps : EReal := Ideal.ofBits .f32 0x358637BD#32
abbrev one : EReal := Ideal.ofBits .f32 0x3F800000#32

/-! ## The host's term -/

/-- The scaled T matrix as the host computes it from the two partial arrays. -/
def scaledT (P : FVec Ideal S2x4096x256 .f32) (D : FVec Ideal S2x1x4096 .f32) : FVec Ideal S4096x256 .bf16 :=
  truncf .bf16
    (mulf
      (addf
        (shapeCast S4096x256 (extractStridedSlice S1x4096x256 ![0, 0, 0] P slices_S2x4096x256_S1x4096x256_0_0_0) shapeCasts_S1x4096x256_S4096x256)
        (shapeCast S4096x256 (extractStridedSlice S1x4096x256 ![1, 0, 0] P slices_S2x4096x256_S1x4096x256_1_0_0) shapeCasts_S1x4096x256_S4096x256))
      (broadcastInDim S4096x256 ![0, 1] bcast_S4096x1_S4096x256_0_1
        (Host.divf (F := Ideal) (broadcastInDim S4096x1 ![] bcast_S_S4096x1 (constant (F := Ideal) S_ .f32 0x3F800000#32))
          (addf
            (shapeCast S4096x1
              (addf
                (shapeCast S4096 (extractStridedSlice S1x1x4096 ![0, 0, 0] D slices_S2x1x4096_S1x1x4096_0_0_0) shapeCasts_S1x1x4096_S4096)
                (shapeCast S4096 (extractStridedSlice S1x1x4096 ![1, 0, 0] D slices_S2x1x4096_S1x1x4096_1_0_0) shapeCasts_S1x1x4096_S4096))
              shapeCasts_S4096_S4096x1)
            (broadcastInDim S4096x1 ![] bcast_S_S4096x1 (constant (F := Ideal) S_ .f32 0x358637BD#32))))))
    bitsLt_bf16_f32

/-- A slice of one leading entry of a `[2, a, b]` array reads that entry. -/
theorem lead_slice {n1 n2 : ℕ} (off0 : ℕ) (A : (⟨3, ![2, n1, n2]⟩ : Shape).Idx → EReal)
    (h : (⟨3, ![2, n1, n2]⟩ : Shape).Slices ![off0, 0, 0] ⟨3, ![1, n1, n2]⟩) (q : Fin 2) (hq : q.val = off0)
    (a : Fin 1) (i : Fin n1) (j : Fin n2) :
    extractStridedSlice ⟨3, ![1, n1, n2]⟩ ![off0, 0, 0] A h (ix3 a i j) = A (ix3 q i j) :=
  extractStridedSlice_apply _ A h (ix3 a i j) (ix3 q i j) (fun ax => by
    have ha : a.val = 0 := by omega
    match ax with
    | ⟨0, _⟩ => show q.val = off0 + a.val; omega
    | ⟨1, _⟩ => show i.val = 0 + i.val; omega
    | ⟨2, _⟩ => show j.val = 0 + j.val; omega)

/-- A `[1, 1, a]` array cast to `[a]` reads, at `i`, the operand at `(0, 0, i)`. -/
theorem shapeCast_11a_a_apply {a : ℕ} (x : (⟨3, ![1, 1, a]⟩ : Shape).Idx → EReal)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show ((0 : ℕ) * 1 + 0) * a + i.val = i.val
    omega)

/-- The scaled T matrix at `(e, k)`. -/
theorem scaledT_apply (P : FVec Ideal S2x4096x256 .f32) (D : FVec Ideal S2x1x4096 .f32) (e : Fin 4096) (k : Fin 256) :
    (scaledT P D (ix2 e k) : EReal)
      = (P (ix3 (0 : Fin 2) e k) + P (ix3 (1 : Fin 2) e k))
        * Ideal.div one ((D (ix3 (0 : Fin 2) (0 : Fin 1) e) + D (ix3 (1 : Fin 2) (0 : Fin 1) e)) + eps) := by
  unfold scaledT
  refine (BodyB.narrowed_mul_apply _ _ _ (ix2 e k)).trans (congrArg₂ (· * ·) ?_ ?_)
  · refine (addf_apply _ _ _).trans (congrArg₂ (· + ·) ?_ ?_)
    · exact (shapeCast_1ab_ab_apply _ _ e k).trans (lead_slice 0 P _ 0 rfl 0 e k)
    · exact (shapeCast_1ab_ab_apply _ _ e k).trans (lead_slice 1 P _ 1 rfl 0 e k)
  · refine (broadcastInDim_apply _ bcast_S4096x1_S4096x256_0_1 _ (ix2 e k) (ix2 e (0 : Fin 1)) (fun a => by
      match a with
      | ⟨0, _⟩ => show e.val = if (4096 : ℕ) = 1 then 0 else e.val; rw [if_neg (by decide)]
      | ⟨1, _⟩ => show 0 = if (1 : ℕ) = 1 then 0 else k.val; rw [if_pos rfl])).trans ?_
    show Ideal.div _ _ = _
    refine congrArg₂ Ideal.div ?_ ?_
    · exact broadcastInDim_apply _ bcast_S_S4096x1 _ (ix2 e (0 : Fin 1)) ix0 (fun a => a.elim0)
    · refine (addf_apply _ _ _).trans (congrArg₂ (· + ·) ?_ ?_)
      · refine (Cert.Keepdims.shapeCast_a_a1_apply _ _ e 0).trans ((addf_apply _ _ _).trans (congrArg₂ (· + ·) ?_ ?_))
        · exact (shapeCast_11a_a_apply _ _ e).trans (lead_slice 0 D _ 0 rfl 0 0 e)
        · exact (shapeCast_11a_a_apply _ _ e).trans (lead_slice 1 D _ 1 rfl 0 0 e)
      · exact broadcastInDim_apply _ bcast_S_S4096x1 _ (ix2 e (0 : Fin 1)) ix0 (fun a => a.elim0)

/-! ## What the second launch is entered with -/

section Entry
variable (m : (ℓ : Loc nD τ sig) → Buf (Elt Ideal) ℓ) (ρ : Dev nD → PrngReg)

/-- H is as launched: the first launch only reads it and no host operation writes it. -/
theorem entry_H (c : Dev nD) : V2 m ρ c main_arg1 = m ((c : Thread nD τ).loc main_arg1) := by
  show StableHlo.after hostOps1 (W1 m ρ c) (Proc.devRef .tc main_arg1) = _
  after_results
  exact (W1_arr m ρ c 0).trans (((dat0 (V0 m ρ) c).arrAt_in 0 rfl _).trans (A_eq0 (V0 m ρ) c 0))

/-- The column array is what the first launch left. -/
theorem entry_col (c : Dev nD) : V2 m ρ c main_v0_0 = ArraysA.colArr (V0 m ρ) c := by
  show StableHlo.after hostOps1 (W1 m ρ c) (Proc.devRef .tc main_v0_0) = _
  after_results
  exact (W1_arr m ρ c 2).trans (ArraysA.col_final (V0 m ρ) c)

/-- The scaled T matrix, from the partial arrays the first launch left. -/
theorem entry_T (c : Dev nD) :
    (V2 m ρ c main_v18 : FVec Ideal S4096x256 .bf16) = scaledT (ArraysA.tArr (V0 m ρ) c) (ArraysA.dArr (V0 m ρ) c) := by
  have hP : W1 m ρ c (Proc.devRef .tc main_v0_1) = ArraysA.tArr (V0 m ρ) c :=
    (W1_arr m ρ c 3).trans (ArraysA.t_final (V0 m ρ) c)
  have hD : W1 m ρ c (Proc.devRef .tc main_v0_2) = ArraysA.dArr (V0 m ρ) c :=
    (W1_arr m ρ c 4).trans (ArraysA.d_final (V0 m ρ) c)
  show StableHlo.after hostOps1 (W1 m ρ c) (Proc.devRef .tc main_v18) = _
  after_results
  rw [hP, hD]
  rfl

/-- W narrowed to the shorter format. -/
theorem entry_W (c : Dev nD) :
    (V2 m ρ c main_v19 : FVec Ideal S256x256 .bf16)
      = (truncf .bf16 (m ((c : Thread nD τ).loc main_arg2) : FVec Ideal S256x256 .f32) bitsLt_bf16_f32 : FVec Ideal S256x256 .bf16) := by
  have hW : W1 m ρ c (Proc.devRef .tc main_arg2) = m ((c : Thread nD τ).loc main_arg2) :=
    W1_of_ne m ρ c main_arg2 (by decide)
  show StableHlo.after hostOps1 (W1 m ρ c) (Proc.devRef .tc main_v19) = _
  after_results
  rw [hW]

/-- The bias laid out as a row. -/
theorem entry_B (c : Dev nD) :
    (V2 m ρ c main_v20 : FVec Ideal S1x256 .f32)
      = (shapeCast S1x256 (m ((c : Thread nD τ).loc main_arg3) : FVec Ideal S256 .f32) shapeCasts_S256_S1x256 : FVec Ideal S1x256 .f32) := by
  have hB : W1 m ρ c (Proc.devRef .tc main_arg3) = m ((c : Thread nD τ).loc main_arg3) :=
    W1_of_ne m ρ c main_arg3 (by decide)
  show StableHlo.after hostOps1 (W1 m ρ c) (Proc.devRef .tc main_v20) = _
  after_results
  rw [hB]
  rfl

end Entry

end Cert.KernelIdeal.Between

end
-- ==== Proof.ArraysB.lean ====
/-
  The second launch: its result array is the specification.

  The grid has 16 points; point t works on rows t*512 .. t*512+511 of H, of the column array and of the result; the
  scaled T matrix, W and the bias row are whole blocks that never move. The output block at point t is, at (r, o),

      sum_c ((sum_e H n e * scaledT e c) * dv n) * W o c + B o          with n = t*512 + r,

  and scaledT e c = (the two runs' T partials summed) * (1 / ((the two runs' column sums summed) + eps)): the two runs
  together are the whole sums over the 8192 rows, so this is `out n o` with every product commuted. Every block is
  written back and the 16 blocks cover the result.
-/
import proofs.«112070_j17111149707406_2_alg».proof.Proof.Between

set_option maxRecDepth 16384

noncomputable section

open Idealize.ShloMosaic Idealize.ShloMosaic.TcCoe Idealize.ShloMosaic.ValueIdx Idealize.SL.Sem
open Idealize.ShloMosaic.Pipeline (Dat)

namespace Cert.KernelIdeal.ArraysB

open Cert.KernelIdeal Cert.KernelIdeal.Gen Cert.Hyper Cert.KernelIdeal.Between

variable (m : (ℓ : Loc nD τ sig) → Buf (Elt Ideal) ℓ) (ρ : Dev nD → PrngReg)

/-- The four arguments as functions of natural numbers. -/
def Hn (c : Dev nD) : ℕ → ℕ → EReal := nat2 (a := 8192) (b := 4096) (m ((c : Thread nD τ).loc main_arg1))
def Xn (c : Dev nD) : ℕ → ℕ → EReal := nat2 (a := 8192) (b := 256) (m ((c : Thread nD τ).loc main_arg0))
def Wn (c : Dev nD) : ℕ → ℕ → EReal := nat2 (a := 256) (b := 256) (m ((c : Thread nD τ).loc main_arg2))
def Bn (c : Dev nD) : ℕ → EReal := nat1 (a := 256) (m ((c : Thread nD τ).loc main_arg3))

/-- The first launch saw the same H and X. -/
theorem Hn_eq (c : Dev nD) : PointsA.Hn (V0 m ρ) c = Hn m c := rfl
theorem Xn_eq (c : Dev nD) : PointsA.Xn (V0 m ρ) c = Xn m c := rfl

/-- The result array. -/
def outArr (c : Dev nD) : S8192x256.Idx → EReal := fun i =>
  out eps one (Hn m c) (Xn m c) (Wn m c) (Bn m c) (i 0).val (i 1).val

theorem hz2 : (![0, 0] : Fin 2 → Nat) = fun _ => 0 := funext fun a => by fin_cases a <;> rfl

/-- Where each window's block sits at point `t`. -/
theorem idxB : ∀ t : Fin cfg1.N, win1_0.index t 0 = t.val ∧ win1_0.index t 1 = 0 ∧ win1_1.index t 0 = 0 ∧ win1_1.index t 1 = 0
    ∧ win1_2.index t 0 = t.val ∧ win1_2.index t 1 = 0 ∧ win1_3.index t 0 = 0 ∧ win1_3.index t 1 = 0
    ∧ win1_4.index t 0 = 0 ∧ win1_4.index t 1 = 0 ∧ win1_5.index t 0 = t.val ∧ win1_5.index t 1 = 0 :=
  (by decide +kernel : ∀ t : Fin grid1.N, win1_0.index t 0 = t.val ∧ win1_0.index t 1 = 0 ∧ win1_1.index t 0 = 0 ∧ win1_1.index t 1 = 0
    ∧ win1_2.index t 0 = t.val ∧ win1_2.index t 1 = 0 ∧ win1_3.index t 0 = 0 ∧ win1_3.index t 1 = 0
    ∧ win1_4.index t 0 = 0 ∧ win1_4.index t 1 = 0 ∧ win1_5.index t 0 = t.val ∧ win1_5.index t 1 = 0)

theorem rows_lt (t : Fin cfg1.N) (r : Fin 512) : t.val * 512 + r.val < 8192 := by
  have := t.isLt; have h16 : cfg1.N = 16 := N_1; have := r.isLt; omega

/-- The five input blocks at point `t`, at their literal shapes. -/
def Hb (c : Dev nD) (t : Fin cfg1.N) : FVec Ideal S512x4096 .f32 := iblk1 (V2 m ρ) c 0 t
def Tb (c : Dev nD) (t : Fin cfg1.N) : FVec Ideal S4096x256 .bf16 := iblk1 (V2 m ρ) c 1 t
def Cb (c : Dev nD) (t : Fin cfg1.N) : FVec Ideal S512x1 .f32 := iblk1 (V2 m ρ) c 2 t
def Wb (c : Dev nD) (t : Fin cfg1.N) : FVec Ideal S256x256 .bf16 := iblk1 (V2 m ρ) c 3 t
def Bb (c : Dev nD) (t : Fin cfg1.N) : FVec Ideal S1x256 .f32 := iblk1 (V2 m ρ) c 4 t

theorem hb_apply (c : Dev nD) (t : Fin cfg1.N) (r : Fin 512) (e : Fin 4096) :
    Hb m ρ c t (ix2 r e) = Hn m c (t.val * 512 + r.val) e.val := by
  unfold Hn nat2
  rw [dif_pos ⟨rows_lt t r, e.isLt⟩]
  unfold Hb iblk1
  rw [View.read_apply]
  refine (congrFun (entry_H m ρ c) _).trans ?_
  refine congrArg (m ((c : Thread nD τ).loc main_arg1)) (funext fun a => Fin.ext ?_)
  match a with
  | ⟨0, _⟩ => show win1_0.index t 0 * 512 + 1 * r.val = t.val * 512 + r.val; rw [(idxB t).1]; omega
  | ⟨1, _⟩ => show win1_0.index t 1 * 4096 + 1 * e.val = e.val; rw [(idxB t).2.1]; omega

theorem tb_apply (c : Dev nD) (t : Fin cfg1.N) (e : Fin 4096) (k : Fin 256) :
    Tb m ρ c t (ix2 e k) = scaledT (ArraysA.tArr (V0 m ρ) c) (ArraysA.dArr (V0 m ρ) c) (ix2 e k) := by
  unfold Tb iblk1
  rw [View.read_apply]
  refine (congrFun (entry_T m ρ c) _).trans ?_
  refine congrArg (scaledT (ArraysA.tArr (V0 m ρ) c) (ArraysA.dArr (V0 m ρ) c)) (funext fun a => Fin.ext ?_)
  match a with
  | ⟨0, _⟩ => show win1_1.index t 0 * 4096 + 1 * e.val = e.val; rw [(idxB t).2.2.1]; omega
  | ⟨1, _⟩ => show win1_1.index t 1 * 256 + 1 * k.val = k.val; rw [(idxB t).2.2.2.1]; omega

theorem cb_apply (c : Dev nD) (t : Fin cfg1.N) (r : Fin 512) (u : Fin 1) :
    Cb m ρ c t (ix2 r u) = dv eps (Hn m c) (t.val * 512 + r.val) := by
  unfold Cb iblk1
  rw [View.read_apply]
  refine (congrFun (entry_col m ρ c) _).trans ?_
  unfold ArraysA.colArr
  rw [Hn_eq]
  refine congrArg (dv eps (Hn m c)) ?_
  show win1_2.index t 0 * 512 + 1 * r.val = t.val * 512 + r.val
  rw [(idxB t).2.2.2.2.1]; omega

theorem wb_apply (c : Dev nD) (t : Fin cfg1.N) (o : Fin 256) (k : Fin 256) :
    (Wb m ρ c t (ix2 o k) : EReal) = Wn m c o.val k.val := by
  unfold Wb iblk1
  rw [View.read_apply]
  refine (congrFun (entry_W m ρ c) _).trans ?_
  refine (congrArg (m ((c : Thread nD τ).loc main_arg2)) (show _ = ix2 o k from funext fun a => Fin.ext ?_)).trans (nat2_ix2 _ o k)
  match a with
  | ⟨0, _⟩ => show win1_3.index t 0 * 256 + 1 * o.val = o.val; rw [(idxB t).2.2.2.2.2.2.1]; omega
  | ⟨1, _⟩ => show win1_3.index t 1 * 256 + 1 * k.val = k.val; rw [(idxB t).2.2.2.2.2.2.2.1]; omega

theorem bb_apply (c : Dev nD) (t : Fin cfg1.N) (u : Fin 1) (o : Fin 256) :
    Bb m ρ c t (ix2 u o) = Bn m c o.val := by
  unfold Bb iblk1
  rw [View.read_apply]
  refine (congrFun (entry_B m ρ c) _).trans ?_
  refine (congrArg (shapeCast S1x256 (m ((c : Thread nD τ).loc main_arg3)) shapeCasts_S256_S1x256)
    (show _ = ix2 u o from funext fun a => Fin.ext ?_)).trans ((shapeCast_a_1a_apply _ _ u o).trans (nat1_ix1 _ o))
  match a with
  | ⟨0, _⟩ => show win1_4.index t 0 * 1 + 1 * u.val = u.val; rw [(idxB t).2.2.2.2.2.2.2.2.1]; omega
  | ⟨1, _⟩ => show win1_4.index t 1 * 256 + 1 * o.val = o.val; rw [(idxB t).2.2.2.2.2.2.2.2.2.1]; omega

/-- The two partial arrays at an entry. -/
theorem tArr_at (c : Dev nD) (q : Fin 2) (e : Fin 4096) (k : Fin 256) :
    ArraysA.tArr (V0 m ρ) c (ix3 q e k) = ∑ s : Fin 8, ttBlock eps (Hn m c) (Xn m c) (8 * q.val + s.val) e.val k.val := rfl
theorem dArr_at (c : Dev nD) (q : Fin 2) (e : Fin 4096) :
    ArraysA.dArr (V0 m ρ) c (ix3 q (0 : Fin 1) e) = ∑ s : Fin 8, colBlock (Hn m c) (8 * q.val + s.val) e.val := rfl

/-- The scaled T matrix the second launch reads, at `(e, k)`: the two runs' sums, and the two runs' column sums. -/
theorem scaled_apply (c : Dev nD) (t : Fin cfg1.N) (e : Fin 4096) (k : Fin 256) :
    (Tb m ρ c t (ix2 e k) : EReal)
      = ((∑ s : Fin 8, ttBlock eps (Hn m c) (Xn m c) (8 * 0 + s.val) e.val k.val)
          + (∑ s : Fin 8, ttBlock eps (Hn m c) (Xn m c) (8 * 1 + s.val) e.val k.val))
        * Ideal.div one (((∑ s : Fin 8, colBlock (Hn m c) (8 * 0 + s.val) e.val)
          + (∑ s : Fin 8, colBlock (Hn m c) (8 * 1 + s.val) e.val)) + eps) := by
  refine (tb_apply m ρ c t e k).trans ((scaledT_apply _ _ e k).trans ?_)
  rw [tArr_at m ρ c 0 e k, tArr_at m ρ c 1 e k, dArr_at m ρ c 0 e, dArr_at m ρ c 1 e]
  rfl

/-- The output block at point `t` is block `t` of the result array. -/
theorem out_flushed (c : Dev nD) (t : Fin cfg1.N) :
    (dat1 (V2 m ρ) c).flushed 5 t = ((cfg1.win 5).blk t).view.read (Elt Ideal) (outArr m c) := by
  show (cfg1.win 5).cut (grid1.coords t) ((dat1 (V2 m ρ) c).after 5 t) = _
  rw [after1_5]
  unfold out1_5
  rw [View.canon_unit_zero hz2]
  simp only [View.ld_unit_zero (S := S512x4096) hz2, View.ld_unit_zero (S := S4096x256) hz2,
    View.ld_unit_zero (S := S512x1) hz2, View.ld_unit_zero (S := S256x256) hz2, View.ld_unit_zero (S := S1x256) hz2]
  funext j
  obtain ⟨r, o, rfl⟩ : ∃ (r : Fin 512) (o : Fin 256), j = ix2 r o := ⟨j 0, j 1, eq_ix2 j⟩
  show k1_pay1 (F := Ideal) (Hb m ρ c t) (Tb m ρ c t) (Cb m ρ c t) (Wb m ρ c t) (Bb m ρ c t) (ix2 r o)
    = outArr m c (((cfg1.win 5).blk t).view.emb (ix2 r o))
  refine (BodyB.out_apply (Hb m ρ c t) (Tb m ρ c t) (Cb m ρ c t) (Wb m ρ c t) (Bb m ρ c t) r o).trans ?_
  have e0 : ((((cfg1.win 5).blk t).view.emb (ix2 r o)) 0).val = t.val * 512 + r.val := by
    show win1_5.index t 0 * 512 + 1 * r.val = t.val * 512 + r.val
    rw [(idxB t).2.2.2.2.2.2.2.2.2.2.1]; omega
  have e1 : ((((cfg1.win 5).blk t).view.emb (ix2 r o)) 1).val = o.val := by
    show win1_5.index t 1 * 256 + 1 * o.val = o.val
    rw [(idxB t).2.2.2.2.2.2.2.2.2.2.2]; omega
  unfold outArr
  rw [e0, e1]
  refine Eq.trans ?_ (out_commuted eps one (Hn m c) (Xn m c) (Wn m c) (Bn m c) (t.val * 512 + r.val) o.val
    (fun e k => (∑ s : Fin 8, ttBlock eps (Hn m c) (Xn m c) (8 * 0 + s.val) e k)
      + (∑ s : Fin 8, ttBlock eps (Hn m c) (Xn m c) (8 * 1 + s.val) e k))
    (fun e => Ideal.div one (((∑ s : Fin 8, colBlock (Hn m c) (8 * 0 + s.val) e)
      + (∑ s : Fin 8, colBlock (Hn m c) (8 * 1 + s.val) e)) + eps))
    (fun e k => (tt_two_runs eps (Hn m c) (Xn m c) e k).symm)
    (fun e => by unfold dei; rw [col_two_runs]))
  refine congrArg₂ (· + ·) (Finset.sum_congr rfl fun k _ => ?_) (bb_apply m ρ c t 0 o)
  refine congrArg₂ (· * ·) (congrArg₂ (· * ·) (Finset.sum_congr rfl fun e _ => ?_) (cb_apply m ρ c t r 0)) (wb_apply m ρ c t o k)
  exact congrArg₂ (· * ·) (hb_apply m ρ c t r e) (scaled_apply m ρ c t e k)

theorem out_mem (t : Fin cfg1.N) (i : S8192x256.Idx) :
    i ∈ ((cfg1.win 5).blk t).view.set ↔ ∀ a : Fin 2, win1_5.index t a * S512x256.size a ≤ (i a).val ∧ (i a).val < win1_5.index t a * S512x256.size a + S512x256.size a := by
  show i ∈ ((View.whole main_v21).slice (win1_5.rect t)).set ↔ _
  rw [View.set_slice_whole, Rect.mem_set_unit]
  exact Iff.rfl

/-- The result array after the second launch. -/
theorem out_final (c : Dev nD) : (dat1 (V2 m ρ) c).arrAt 5 cfg1.N = outArr m c :=
  (dat1 (V2 m ρ) c).arrAt_eq_of_cover 5 (outArr m c) (fun t _ => out_flushed m ρ c t) fun i => by
    have hi0 : (i 0).val < 8192 := (i 0).isLt
    have hi1 : (i 1).val < 256 := (i 1).isLt
    have hN : cfg1.N = 16 := N_1
    have hT : (i 0).val / 512 < cfg1.N := by omega
    have e0 : win1_5.index ⟨(i 0).val / 512, hT⟩ 0 = (i 0).val / 512 := (idxB ⟨(i 0).val / 512, hT⟩).2.2.2.2.2.2.2.2.2.2.1
    have e1 : win1_5.index ⟨(i 0).val / 512, hT⟩ 1 = 0 := (idxB ⟨(i 0).val / 512, hT⟩).2.2.2.2.2.2.2.2.2.2.2
    refine ⟨⟨(i 0).val / 512, hT⟩, flush1_5 _, ?_⟩
    rw [out_mem]
    intro a
    match a with
    | ⟨0, _⟩ =>
      show win1_5.index ⟨(i 0).val / 512, hT⟩ 0 * 512 ≤ (i 0).val ∧ (i 0).val < win1_5.index ⟨(i 0).val / 512, hT⟩ 0 * 512 + 512
      rw [e0]; omega
    | ⟨1, _⟩ =>
      show win1_5.index ⟨(i 0).val / 512, hT⟩ 1 * 256 ≤ (i 1).val ∧ (i 1).val < win1_5.index ⟨(i 0).val / 512, hT⟩ 1 * 256 + 256
      rw [e1]; omega

/-- The program's result buffer at the end of the run. -/
theorem result_eq (c : Dev nD) : W3 m ρ c (Proc.devRef .tc main_v21) = outArr m c :=
  (W3_arr m ρ c 5).trans (out_final m ρ c)

end Cert.KernelIdeal.ArraysB

end
-- ==== Proof.RefValue.lean ====
/-
  The reference, stage by stage, is the specification.

  Read at an index, the reference's operations are exactly the formulas of the specification, with the rows' scale
  written as a power: (sum_e H n e + eps) ^ (-1/2). Where each row's sum plus eps is positive that power is the
  inverse square root, and the reference's result at (n, o) is `out n o`. The host's sums start from a zero, which
  adds nothing.
-/
import proofs.«112070_j17111149707406_2_alg».proof.Proof.Gen.ReferenceIdeal.Read
import proofs.«112070_j17111149707406_2_alg».proof.Proof.Spec

noncomputable section

open Idealize.ShloMosaic Idealize.ShloMosaic.TcCoe Idealize.ShloMosaic.ValueIdx

namespace Cert.ReferenceIdeal.RefValue

open Cert.ReferenceIdeal Cert.ReferenceIdeal.Read Cert.Hyper

variable (x0 : (⟨S8192x256, .f32⟩ : BufTy).Contents (Elt Ideal)) (x1 : (⟨S8192x4096, .f32⟩ : BufTy).Contents (Elt Ideal))
  (x2 : (⟨S256x256, .f32⟩ : BufTy).Contents (Elt Ideal)) (x3 : (⟨S256, .f32⟩ : BufTy).Contents (Elt Ideal))

abbrev eps : EReal := Ideal.ofBits .f32 0x358637BD#32
abbrev one : EReal := Ideal.ofBits .f32 0x3F800000#32

/-- The four arguments as functions of natural numbers. -/
def Xn : ℕ → ℕ → EReal := nat2 (a := 8192) (b := 256) x0
def Hn : ℕ → ℕ → EReal := nat2 (a := 8192) (b := 4096) x1
def Wn : ℕ → ℕ → EReal := nat2 (a := 256) (b := 256) x2
def Bn : ℕ → EReal := nat1 (a := 256) x3

/-- A row's sum plus eps. -/
theorem rowsum_at (n : Fin 8192) :
    val_main_v7 (F := Ideal) x1 (ix1 n) = (∑ e : Fin 4096, Hn x1 n.val e.val) + eps := by
  rw [val_main_v7_apply, val_main_v1_apply, val_main_v6_apply, val_main_cst_0_apply, val_main_cst_3_apply]
  simp only [Ideal.addf_def, Ideal.ofBits_def]
  rw [ofBits_zero, zero_add]
  refine congrArg (· + eps) (Finset.sum_congr rfl fun k _ => ?_)
  rw [show idx_main_v1 (ix1 n) k = ix2 n k from funext fun a => Fin.ext (by match a with | ⟨0, _⟩ => rfl | ⟨1, _⟩ => rfl)]
  exact nat2_ix2 x1 n k

/-- The rows' scale, where the row's sum plus eps is positive. -/
theorem dv_at (n : Fin 8192) (hpos : 0 < (∑ e : Fin 4096, Hn x1 n.val e.val) + eps) :
    val_main_v9 (F := Ideal) x1 (ix1 n) = dv eps (Hn x1) n.val := by
  rw [val_main_v9_apply, rowsum_at, val_main_v8_apply, val_main_cst_4_apply]
  simp only [Ideal.hostPowf_def, Ideal.ofBits_def]
  rw [ofBits_neg_half, pow_neg_half _ hpos]
  rfl

/-- The columns' scale. -/
theorem dei_at (e : Fin 4096) : val_main_v5 (F := Ideal) x1 (ix1 e) = dei eps one (Hn x1) e.val := by
  rw [val_main_v5_apply, val_main_v4_apply, val_main_cst_2_apply, val_main_v3_apply, val_main_v0_apply, val_main_v2_apply,
    val_main_cst_apply, val_main_cst_1_apply]
  simp only [Ideal.addf_def, Ideal.ofBits_def, Ideal.hostDivf_def]
  rw [ofBits_zero, zero_add]
  unfold dei
  refine congrArg (fun z => Ideal.div one (z + eps)) (Finset.sum_congr rfl fun k _ => ?_)
  rw [show idx_main_v0 (ix1 e) k = ix2 k e from funext fun a => Fin.ext (by match a with | ⟨0, _⟩ => rfl | ⟨1, _⟩ => rfl)]
  exact nat2_ix2 x1 k e

variable (hpos : ∀ n : Fin 8192, 0 < (∑ e : Fin 4096, Hn x1 n.val e.val) + eps)
include hpos

/-- The row-scaled features. -/
theorem xs_at (n : Fin 8192) (k : Fin 256) :
    val_main_v12 (F := Ideal) x0 x1 (ix2 n k) = dv eps (Hn x1) n.val * Xn x0 n.val k.val := by
  rw [val_main_v12_apply, val_main_v11_apply, val_main_v10_apply]
  rw [show idx_main_v10 (idx_main_v11 (ix2 n k)) = ix1 n from funext fun a => Fin.ext (by match a with | ⟨0, _⟩ => rfl)]
  rw [dv_at x1 n (hpos n)]
  simp only [Ideal.mulf_def]
  rw [nat2_ix2 x0 n k]; rfl

/-- H transposed times the row-scaled features. -/
theorem tt_at (e : Fin 4096) (k : Fin 256) :
    val_main_v15 (F := Ideal) x0 x1 (ix2 e k) = tt eps (Hn x1) (Xn x0) e.val k.val := by
  rw [val_main_v15_apply]
  unfold tt
  refine Finset.sum_congr rfl fun n _ => ?_
  rw [val_main_v14_apply]
  rw [show idx_main_v14 (lidx_main_v15 (ix2 e k) n) = ix2 n e from funext fun a => Fin.ext (by match a with | ⟨0, _⟩ => rfl | ⟨1, _⟩ => rfl)]
  rw [show ridx_main_v15 (ix2 e k) n = ix2 n k from funext fun a => Fin.ext (by match a with | ⟨0, _⟩ => rfl | ⟨1, _⟩ => rfl)]
  rw [xs_at x0 x1 hpos n k, nat2_ix2 x1 n e]; rfl

/-- The column-scaled product. -/
theorem t_at (e : Fin 4096) (k : Fin 256) :
    val_main_v17 (F := Ideal) x0 x1 (ix2 e k) = dei eps one (Hn x1) e.val * tt eps (Hn x1) (Xn x0) e.val k.val := by
  rw [val_main_v17_apply, val_main_v16_apply, val_main_v13_apply]
  rw [show idx_main_v13 (idx_main_v16 (ix2 e k)) = ix1 e from funext fun a => Fin.ext (by match a with | ⟨0, _⟩ => rfl)]
  rw [dei_at x1 e, tt_at x0 x1 hpos e k]
  rfl

/-- The convolution's output before the linear layer. -/
theorem conv_at (n : Fin 8192) (k : Fin 256) :
    val_main_v21 (F := Ideal) x0 x1 (ix2 n k)
      = dv eps (Hn x1) n.val * ∑ e : Fin 4096, Hn x1 n.val e.val * (dei eps one (Hn x1) e.val * tt eps (Hn x1) (Xn x0) e.val k.val) := by
  rw [val_main_v21_apply, val_main_v20_apply, val_main_v18_apply]
  rw [show idx_main_v18 (idx_main_v20 (ix2 n k)) = ix1 n from funext fun a => Fin.ext (by match a with | ⟨0, _⟩ => rfl)]
  rw [dv_at x1 n (hpos n), val_main_v19_apply]
  simp only [Ideal.mulf_def]
  refine congrArg (dv eps (Hn x1) n.val * ·) (Finset.sum_congr rfl fun e _ => ?_)
  rw [show lidx_main_v19 (ix2 n k) e = ix2 n e from funext fun a => Fin.ext (by match a with | ⟨0, _⟩ => rfl | ⟨1, _⟩ => rfl)]
  rw [show ridx_main_v19 (ix2 n k) e = ix2 e k from funext fun a => Fin.ext (by match a with | ⟨0, _⟩ => rfl | ⟨1, _⟩ => rfl)]
  rw [t_at x0 x1 hpos e k, nat2_ix2 x1 n e]; rfl

/-- The reference's result. -/
theorem result_at (n : Fin 8192) (o : Fin 256) :
    val_main_v26 (F := Ideal) x0 x1 x2 x3 (ix2 n o) = out eps one (Hn x1) (Xn x0) (Wn x2) (Bn x3) n.val o.val := by
  rw [val_main_v26_apply, val_main_v23_apply, val_main_v25_apply, val_main_v24_apply]
  simp only [Ideal.addf_def]
  unfold out
  refine congrArg₂ (· + ·) (Finset.sum_congr rfl fun k _ => ?_) ?_
  · rw [show lidx_main_v23 (ix2 n o) k = ix2 n k from funext fun a => Fin.ext (by match a with | ⟨0, _⟩ => rfl | ⟨1, _⟩ => rfl)]
    rw [val_main_v22_apply]
    rw [show idx_main_v22 (ridx_main_v23 (ix2 n o) k) = ix2 o k from funext fun a => Fin.ext (by match a with | ⟨0, _⟩ => rfl | ⟨1, _⟩ => rfl)]
    rw [conv_at x0 x1 hpos n k, nat2_ix2 x2 o k]; rfl
  · rw [show idx_main_v24 (idx_main_v25 (ix2 n o)) = ix1 o from funext fun a => Fin.ext (by match a with | ⟨0, _⟩ => rfl)]
    exact nat1_ix1 x3 o

end Cert.ReferenceIdeal.RefValue

end
-- ==== Proof.PreDomain.lean ====
/-
  What the precondition says about the rows of H.

  Besides the finiteness of every input, the precondition has one more conjunct: every row's sum plus eps is
  positive, which is where the reference's own negative power of that number is defined. Read out of the printed
  predicate (a conjunction of reductions by "and"), its last conjunct gives, for every row n,

      0 < sum_e H n e + eps.
-/
import proofs.«112070_j17111149707406_2_alg».proof.Pre_finite_inputs
import proofs.«112070_j17111149707406_2_alg».proof.Proof.Gen.Pre_finite_inputs
import proofs.«112070_j17111149707406_2_alg».proof.Proof.Spec
import Idealize.ShloMosaic.Lib.ReduceAll
import Idealize.ShloMosaic.Lib.Affine
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx

namespace Cert.PreDomain

open Cert.Pre_finite_inputs Cert.Pre_finite_inputs.Facts Cert.Hyper

instance : Subsingleton S_.Idx := ⟨fun a b => funext fun d => d.elim0⟩

/-- A comparison "greater than" that answers 1 is a strict inequality. -/
theorem lt_of_cmp_ogt {x y : EReal} (h : Ideal.cmp .ogt x y = 1#1) : y < x := by
  by_contra hn
  simp [Ideal.cmp, hn] at h

/-- A row's sum plus eps, as the predicate spells it, at row `n`. -/
theorem rowsum_eps_apply (a1 : FVec Ideal S8192x4096 .f32) (n : Fin 8192) :
    addf (Host.reduceAdd (F := Ideal) a1 (constant (F := Ideal) S_ .f32 0x00000000#32) reducesTo_S8192x4096_S8192_d1 h_S_)
        (broadcastInDim S8192 ![] bcast_S_S8192 (constant (F := Ideal) S_ .f32 0x358637BD#32)) (ix1 n)
      = (∑ e : Fin 4096, nat2 (a := 8192) (b := 4096) a1 n.val e.val) + Ideal.ofBits .f32 0x358637BD#32 := by
  refine (addf_apply _ _ _).trans (congrArg₂ (· + ·) ?_ ?_)
  · simp only [Host.reduceAdd, Ideal.hostReduceAdd_def]
    rw [Ideal.hostReduceAdd_single reducesTo_S8192x4096_S8192_d1 (by decide)]
    refine (congrArg (· + _) (show constant (F := Ideal) S_ .f32 0x00000000#32 (Shape.Idx.first h_S_) = 0 from ofBits_zero)).trans ?_
    rw [zero_add]
    refine Finset.sum_congr rfl fun k _ => ?_
    refine (congrArg a1 (show _ = ix2 n (⟨k.val, k.isLt⟩ : Fin 4096) from
      funext fun a => Fin.ext (by match a with | ⟨0, _⟩ => rfl | ⟨1, _⟩ => rfl))).trans ?_
    exact nat2_ix2 a1 n ⟨k.val, k.isLt⟩
  · exact broadcastInDim_apply _ bcast_S_S8192 _ (ix1 n) ix0 (fun a => a.elim0)

/-- Under the precondition every row's sum plus eps is positive. -/
theorem row_pos (a0 : FVec Ideal S8192x256 .f32) (a1 : FVec Ideal S8192x4096 .f32) (a2 : FVec Ideal S256x256 .f32)
    (a3 : FVec Ideal S256 .f32) (h : fn (F := Ideal) a0 a1 a2 a3 = fun _ => 1#1) (n : Fin 8192) :
    0 < (∑ e : Fin 4096, nat2 (a := 8192) (b := 4096) a1 n.val e.val) + Ideal.ofBits .f32 0x358637BD#32 := by
  have h0 := congrFun h ix0
  dsimp only [fn, fn_part1] at h0
  have h1 := (IntOp.andi_eq_one.mp h0).2
  have h2 := Host.reduce_andi_all _ _ _ _ _ h1 (ix1 n)
  have h3 := lt_of_cmp_ogt h2
  rw [rowsum_eps_apply a1 n] at h3
  refine lt_of_eq_of_lt ?_ h3
  exact ((broadcastInDim_apply _ bcast_S_S8192 _ (ix1 n) ix0 (fun a => a.elim0)).trans ofBits_zero).symm

end Cert.PreDomain

end
-- ==== Proof.lean ====
/-
  Hypergraph convolution followed by a linear layer: the two-launch kernel against the jnp reference, over the
  extended reals.

  Both programs compute, for an incidence matrix H [8192, 4096], features X [8192, 256], a weight matrix W and a
  bias B,

      out n o = sum_k (dv n * sum_e H n e * (dei e * sum_n' H n' e * (dv n' * X n' k))) * W o k + B o,
      dv n = (sum_e H n e + eps) ^ (-1/2),      dei e = 1 / (sum_n H n e + eps).

  The reference writes the rows' scale as a power with exponent -1/2; the kernel as an inverse square root. The two
  agree exactly where the row's sum plus eps is positive, which is the domain of the reference's own power and the
  one conjunct the precondition has besides finiteness. The kernel's first launch walks the rows in two runs of
  eight blocks of 512, keeping per run a partial sum of H^T (dv X) and of H's column sums; the host adds the two
  partials and applies the columns' scale; the second launch multiplies by H again, applies the rows' scale and
  the linear layer. Only commutativity of the product and regrouping of sums separate the two arrangements, so the
  finiteness of the inputs is never used.

  The kernel's run ends with the result buffer at the fold of its three segments; the modules under Proof/ read that
  fold as the specification array, and the reference's generated run is read stage by stage to the same array.
  The program's idealization rewrote nothing, so the third conjunct is trivial.
-/
import proofs.«112070_j17111149707406_2_alg».proof.Defs
import proofs.«112070_j17111149707406_2_alg».proof.Proof.Gen.Kernel
import proofs.«112070_j17111149707406_2_alg».proof.Proof.Gen.Kernel.Skeleton
import proofs.«112070_j17111149707406_2_alg».proof.Proof.Gen.Kernel.Launch
import proofs.«112070_j17111149707406_2_alg».proof.Proof.Gen.Kernel.Points
import proofs.«112070_j17111149707406_2_alg».proof.Proof.Gen.Kernel.Frame
import proofs.«112070_j17111149707406_2_alg».proof.Proof.Gen.KernelIdeal
import proofs.«112070_j17111149707406_2_alg».proof.Proof.Gen.KernelIdeal.Skeleton
import proofs.«112070_j17111149707406_2_alg».proof.Proof.Gen.KernelIdeal.Launch
import proofs.«112070_j17111149707406_2_alg».proof.Proof.Gen.KernelIdeal.Points
import proofs.«112070_j17111149707406_2_alg».proof.Proof.Gen.KernelIdeal.Frame
import proofs.«112070_j17111149707406_2_alg».proof.Proof.Gen.ReferenceIdeal
import proofs.«112070_j17111149707406_2_alg».proof.Proof.Gen.ReferenceIdeal.Run
import proofs.«112070_j17111149707406_2_alg».proof.Proof.Gen.ReferenceIdeal.Read
import proofs.«112070_j17111149707406_2_alg».proof.Proof.Gen.Pre_finite_inputs
import proofs.«112070_j17111149707406_2_alg».proof.Proof.KernelRun
import proofs.«112070_j17111149707406_2_alg».proof.Proof.ArraysB
import proofs.«112070_j17111149707406_2_alg».proof.Proof.RefValue
import proofs.«112070_j17111149707406_2_alg».proof.Proof.PreDomain
import Idealize.ShloMosaic.Adequacy
import Idealize.ShloMosaic.Init

noncomputable section

namespace Cert.Proof

open Idealize.ShloMosaic Idealize.ShloMosaic.ValueIdx Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel runs and leaves its arguments as launched. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification array of arguments that agree. -/
theorem algebraic : Cert.algebraic_KernelIdeal_ReferenceIdeal := by
  intro m ρ m' ρ' hpre hagree
  refine ⟨fun c => Cert.KernelIdeal.ArraysB.outArr m c, ?_, ?_⟩
  · exact (θ_run Cert.KernelIdeal.defs _ _).mono
      (fun _ h c => ⟨(h c).1.trans (Cert.KernelIdeal.ArraysB.result_eq m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v26_eq, (hagree c).1, (hagree c).2.1, (hagree c).2.2.1, (hagree c).2.2.2]
    funext i
    obtain ⟨n, o, rfl⟩ : ∃ (n : Fin 8192) (o : Fin 256), i = ix2 n o := ⟨i 0, i 1, eq_ix2 i⟩
    rw [Cert.ReferenceIdeal.RefValue.result_at _ _ _ _ (fun n => Cert.PreDomain.row_pos _ _ _ _ (hpre c) n) n o]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
